-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_n" .f32 0x37800000#32 ((1 / 65536 : ℝ) : EReal)
  ∧ IdealRules.named_const.Statement Cert.KernelIdeal.κ "inv_nm1" .f32 0x37800080#32 ((1 / 65535 : ℝ) : EReal)
  ∧ IdealRules.named_const.Statement Cert.KernelIdeal.κ "inv_n" .f32 0x37800000#32 ((1 / 65536 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x256 : Shape := ⟨3, ![256, 256, 256]⟩
abbrev S_ : Shape := ⟨0, ![]⟩

class Facts : Prop where
  bcast_S_S256x256x256 : S_.BroadcastsInDim S256x256x256 (![] : Fin 0 → Fin S256x256x256.rank)
  reducesTo_S256x256x256_S_d0_1_2 : S256x256x256.ReducesTo [0, 1, 2] S_
  h_S_ : 0 < S_.numel

variable [Facts]

def fn {F : FTy → Type} [FloatOps F] (main_arg0 : FVec F S256x256x256 .f32) (main_arg1 : IVec S256x256x256 32) : IVec S_ 1 :=
  let main_v0 : FVec F S256x256x256 .f32 := Host.absf main_arg0
  let main_cst : FVec F S_ .f32 := constant S_ .f32 0x7F800000#32
  let main_v1 : FVec F S256x256x256 .f32 := broadcastInDim S256x256x256 ![] bcast_S_S256x256x256 main_cst
  let main_v2 : IVec S256x256x256 1 := cmpf .olt main_v0 main_v1
  let main_c : IVec S_ 1 := constantI S_ 1 1#1
  let main_v3 : IVec S_ 1 := (fun x v => Host.reduce IntOp.andi x v reducesTo_S256x256x256_S_d0_1_2 h_S_) main_v2 main_c
  main_v3
-- ==== Kernel.lean ====
abbrev S256x256x256 : Shape := ⟨3, ![256, 256, 256]⟩
abbrev S256x1x1 : Shape := ⟨3, ![256, 1, 1]⟩
abbrev S16x256x256 : Shape := ⟨3, ![16, 256, 256]⟩
abbrev S16x1x1 : Shape := ⟨3, ![16, 1, 1]⟩
abbrev S16x256 : Shape := ⟨2, ![16, 256]⟩
abbrev S16x256x1 : Shape := ⟨3, ![16, 256, 1]⟩
abbrev S16x1 : Shape := ⟨2, ![16, 1]⟩
abbrev S_ : Shape := ⟨0, ![]⟩

abbrev nBuf : Space → Nat
  | .hbm => 9
  | .vmem => 16
  | .smem => 0
  | _ => 0

abbrev bufTy : (tb : Table) → Fin (tcTables nBuf tb) → BufTy
  | .hbm, ⟨0, _⟩ => ⟨S256x256x256, .f32⟩
  | .hbm, ⟨1, _⟩ => ⟨S256x256x256, .i32⟩
  | .hbm, ⟨2, _⟩ => ⟨S256x1x1, .f32⟩
  | .hbm, ⟨3, _⟩ => ⟨S256x1x1, .f32⟩
  | .hbm, ⟨4, _⟩ => ⟨S256x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16x256x256, .f32⟩
  | .local _ .vmem, ⟨1, _⟩ => ⟨S16x256x256, .f32⟩
  | .local _ .vmem, ⟨2, _⟩ => ⟨S16x1x1, .f32⟩
  | .local _ .vmem, ⟨3, _⟩ => ⟨S16x1x1, .f32⟩
  | .local _ .vmem, ⟨4, _⟩ => ⟨S16x1x1, .f32⟩
  | .local _ .vmem, ⟨5, _⟩ => ⟨S16x1x1, .f32⟩
  | .local _ .vmem, ⟨6, _⟩ => ⟨S16x256x256, .f32⟩
  | .local _ .vmem, ⟨7, _⟩ => ⟨S16x256x256, .f32⟩
  | .local _ .vmem, ⟨8, _⟩ => ⟨S16x256x256, .i32⟩
  | .local _ .vmem, ⟨9, _⟩ => ⟨S16x256x256, .i32⟩
  | .local _ .vmem, ⟨10, _⟩ => ⟨S16x1x1, .f32⟩
  | .local _ .vmem, ⟨11, _⟩ => ⟨S16x1x1, .f32⟩
  | .local _ .vmem, ⟨12, _⟩ => ⟨S16x1x1, .f32⟩
  | .local _ .vmem, ⟨13, _⟩ => ⟨S16x1x1, .f32⟩
  | .local _ .vmem, ⟨14, _⟩ => ⟨S16x1x1, .f32⟩
  | .local _ .vmem, ⟨15, _⟩ => ⟨S16x1x1, .f32⟩
  | _, _ => ⟨S256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x256x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S16x256x256_S16x256x256_0_0_0 : ∀ a, (![0, 0, 0] : Fin 3 → Nat) a + S16x256x256.size a ≤ S16x256x256.size a
  h_S16x256x256 : 0 < S16x256x256.numel
  reduces_S16x256x256_S16x256 : S16x256x256.Reduces [2] S16x256
  shapeCasts_S16x256_S16x256x1 : S16x256.ShapeCasts S16x256x1
  reduces_S16x256x1_S16x1 : S16x256x1.Reduces [1] S16x1
  shapeCasts_S16x1_S16x1x1 : S16x1.ShapeCasts S16x1x1
  broadcasts_S16x1x1_S16x256x256 : S16x1x1.Broadcasts S16x256x256
  inb_S16x1x1_S16x1x1_0_0_0 : ∀ a, (![0, 0, 0] : Fin 3 → Nat) a + S16x1x1.size a ≤ S16x1x1.size a
  h_S16x1x1 : 0 < S16x1x1.numel
  shapeCasts_S16x1x1_S16x1x1 : S16x1x1.ShapeCasts S16x1x1
  natLt_1_32 : 1 < 32
  reducesTo_S256x1x1_S_d0_1_2 : S256x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S256x256x256.size a
  hwx0_0 : ∀ i : grid0.Coords, EltTy.bits .f32 = 32 ∨ (Rect.block (s := S256x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x1.size a ≤ S256x1x1.size a
  hwx0_1 : ∀ i : grid0.Coords, EltTy.bits .f32 = 32 ∨ (Rect.block (s := S256x1x1) S16x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1x1.size a ≤ S256x1x1.size a
  hwx0_2 : ∀ i : grid0.Coords, EltTy.bits .f32 = 32 ∨ (Rect.block (s := S256x1x1) S16x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x256x256.size a ≤ S256x256x256.size a
  hwx1_0 : ∀ i : grid1.Coords, EltTy.bits .f32 = 32 ∨ (Rect.block (s := S256x256x256) S16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x256x256.size a ≤ S256x256x256.size a
  hwx1_1 : ∀ i : grid1.Coords, EltTy.bits .i32 = 32 ∨ (Rect.block (s := S256x256x256) S16x256x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1x1.size a ≤ S256x1x1.size a
  hwx1_2 : ∀ i : grid1.Coords, EltTy.bits .f32 = 32 ∨ (Rect.block (s := S256x1x1) S16x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1x1.size a ≤ S256x1x1.size a
  hwx1_3 : ∀ i : grid1.Coords, EltTy.bits .f32 = 32 ∨ (Rect.block (s := S256x1x1) S16x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x1x1.size a ≤ S256x1x1.size a
  hwx1_4 : ∀ i : grid1.Coords, EltTy.bits .f32 = 32 ∨ (Rect.block (s := S256x1x1) S16x1x1.size (cc1_transform_4 i) (hinb1_4 i)).WholeWords (EltTy.packing .f32)

variable [Facts₀]

abbrev win0_0 : Pipeline.Window sig grid0 :=
  Pipeline.Window.ofSpec (Memref.whole main_arg0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S16x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S16x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S16x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S16x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S16x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S256x256x256 : Shape := ⟨3, ![256, 256, 256]⟩
abbrev S256x65536 : Shape := ⟨2, ![256, 65536]⟩
abbrev S_ : Shape := ⟨0, ![]⟩
abbrev S256 : Shape := ⟨1, ![256]⟩
abbrev S256x1 : Shape := ⟨2, ![256, 1]⟩

abbrev nBuf : Space → Nat
  | .hbm => 56
  | .vmem => 0
  | .smem => 0
  | _ => 0

abbrev bufTy : (tb : Table) → Fin (tcTables nBuf tb) → BufTy
  | .hbm, ⟨0, _⟩ => ⟨S256x256x256, .f32⟩
  | .hbm, ⟨1, _⟩ => ⟨S256x256x256, .i32⟩
  | .hbm, ⟨2, _⟩ => ⟨S256x65536, .f32⟩
  | .hbm, ⟨3, _⟩ => ⟨S256x65536, .i32⟩
  | .hbm, ⟨4, _⟩ => ⟨S_, .i32⟩
  | .hbm, ⟨5, _⟩ => ⟨S256x65536, .i32⟩
  | .hbm, ⟨6, _⟩ => ⟨S256x65536, .i1⟩
  | .hbm, ⟨7, _⟩ => ⟨S256x65536, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .i32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x65536, .f32⟩
  | .hbm, ⟨22, _⟩ => ⟨S256x65536, .f32⟩
  | .hbm, ⟨23, _⟩ => ⟨S256x65536, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S256x1, .f32⟩
  | .hbm, ⟨31, _⟩ => ⟨S256x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x65536, .f32⟩
  | .hbm, ⟨40, _⟩ => ⟨S256x65536, .f32⟩
  | .hbm, ⟨41, _⟩ => ⟨S256x65536, .f32⟩
  | .hbm, ⟨42, _⟩ => ⟨S256x65536, .f32⟩
  | .hbm, ⟨43, _⟩ => ⟨S_, .f32⟩
  | .hbm, ⟨44, _⟩ => ⟨S256x65536, .f32⟩
  | .hbm, ⟨45, _⟩ => ⟨S256x65536, .f32⟩
  | .hbm, ⟨46, _⟩ => ⟨S256x65536, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_cst_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_cst_1 : Ref sig .tc := ⟨.hbm, 25, rfl⟩
abbrev main_call0_call0_v8 : Ref sig .tc := ⟨.hbm, 26, rfl⟩
abbrev main_call0_call0_cst_2 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_v12 : Ref sig .tc := ⟨.hbm, 31, rfl⟩
abbrev main_call0_call0_cst_3 : Ref sig .tc := ⟨.hbm, 32, rfl⟩
abbrev main_call0_call0_v13 : Ref sig .tc := ⟨.hbm, 33, rfl⟩
abbrev main_call0_call0_cst_4 : Ref sig .tc := ⟨.hbm, 34, rfl⟩
abbrev main_call0_call0_call0_v0 : Ref sig .tc := ⟨.hbm, 35, rfl⟩
abbrev main_call0_call0_call0_v1 : Ref sig .tc := ⟨.hbm, 36, rfl⟩
abbrev main_call0_v0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_cst_5 : Ref sig .tc := ⟨.hbm, 52, rfl⟩
abbrev main_v20 : Ref sig .tc := ⟨.hbm, 53, rfl⟩
abbrev main_cst_6 : Ref sig .tc := ⟨.hbm, 54, rfl⟩
abbrev main_v21 : Ref sig .tc := ⟨.hbm, 55, rfl⟩

abbrev nD : Nat := 1
abbrev τ : Topo := Topo.v7x

variable {F : FTy → Type} [FloatOps F]

class Facts₀ : Prop where
  shapeCasts_S256x256x256_S256x65536 : S256x256x256.ShapeCasts S256x65536
  bcast_S_S256x65536 : S_.BroadcastsInDim S256x65536 (![] : Fin 0 → Fin S256x65536.rank)
  reducesTo_S256x65536_S256_d1 : S256x65536.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x65536_0_1 : S256x1.BroadcastsInDim S256x65536 (![0, 1] : Fin 2 → Fin S256x65536.rank)
  bcast_S_S256 : S_.BroadcastsInDim S256 (![] : Fin 0 → Fin S256.rank)
  reducesTo_S256_S_d0 : S256.ReducesTo [0] S_

variable [Facts₀]

class Facts : Prop extends Facts₀ where

variable [Facts]
-- ==== Proof.Spec.lean ====
/-
  The function both programs compute, written once over the two argument arrays.

  For a batch element `b` write `r = x[b, ·, ·]` for its 256 × 256 slab.  Then
    mean  = (Σ_h Σ_w r h w) · (1/65536)
    std   = √( (Σ_h Σ_w (r h w − mean)²) · (1/65535) )
    nss_b = (Σ_h Σ_w (−1) · ((r h w − mean) / std) · mask h w) · (1/65536),   mask = [target ≠ 0]
  and the result is (0 + Σ_b nss_b) / 256.  Every operation is the extended reals' own, so the
  definitions make sense (and both programs agree) at every input, finite or not.
-/
import Idealize.ShloMosaic.PureOps.Ideal
import Idealize.ShloMosaic.Lib.ValueIdx

noncomputable section

open scoped BigOperators

namespace Cert.NormScan

open Idealize.ShloMosaic Idealize.ShloMosaic.ValueIdx

/-- The argument arrays' shape. -/
abbrev A3 : Shape := ⟨3, ![256, 256, 256]⟩

/-- The exact reciprocals the kernel's two named constants denote. -/
def invN : EReal := ((1 / 65536 : ℝ) : EReal)
def invNm1 : EReal := ((1 / 65535 : ℝ) : EReal)

/-- The sum over a 256 × 256 slab, rows outside, lanes inside. -/
def slab (f : Fin 256 → Fin 256 → EReal) : EReal := ∑ h : Fin 256, ∑ w : Fin 256, f h w

/-- A slab's mean. -/
def meanOf (r : Fin 256 → Fin 256 → EReal) : EReal := slab r * invN

/-- A slab's unbiased standard deviation. -/
def stdOf (r : Fin 256 → Fin 256 → EReal) : EReal :=
  Ideal.sqrt (slab (fun h w => (r h w - meanOf r) * (r h w - meanOf r)) * invNm1)

/-- The mask value of a target word: 1 where the word is not zero, else 0. -/
def maskOf (t : BitVec 32) : EReal := (((IntOp.cmpi .ne t 0#32).toNat : ℝ) : EReal)

/-- A slab's masked mean of the negated normalized values, for a given centre `μ` and scale `σ`. -/
def nssOf (r mk : Fin 256 → Fin 256 → EReal) (μ σ : EReal) : EReal :=
  slab (fun h w => Ideal.ofBits .f32 0xBF800000#32 * Ideal.div (r h w - μ) σ * mk h w) * invN

/-- Batch element `b`'s slab of the input, and of the mask. -/
def row (x : A3.Idx → EReal) (b : Fin 256) : Fin 256 → Fin 256 → EReal := fun h w => x (ix3 b h w)
def mrow (tg : A3.Idx → BitVec 32) (b : Fin 256) : Fin 256 → Fin 256 → EReal := fun h w => maskOf (tg (ix3 b h w))

/-- Batch element `b`'s statistic. -/
def nss (x : A3.Idx → EReal) (tg : A3.Idx → BitVec 32) (b : Fin 256) : EReal :=
  nssOf (row x b) (mrow tg b) (meanOf (row x b)) (stdOf (row x b))

/-- The result: the mean of the 256 statistics, as the host computes it (zero plus the sum, divided by 256). -/
def result (x : A3.Idx → EReal) (tg : A3.Idx → BitVec 32) : EReal :=
  Ideal.div (Ideal.ofBits .f32 0x00000000#32 + ∑ b : Fin 256, nss x tg b) (Ideal.ofBits .f32 0x43800000#32)

end Cert.NormScan

end
-- ==== Proof.KernelRun.lean ====
/-
  The kernel program's run with its result buffer kept: from any launch memory with zero counters every
  weakly fair execution terminates, and in every final state the scalar result buffer holds what the host
  tail leaves there (the last boundary's contents), the two argument arrays being as launched.
-/
import proofs.«161543_j18021682774593_1_alg».proof.Proof.Gen.KernelIdeal.Frame

set_option maxRecDepth 16384

noncomputable section

namespace Cert.NormScan.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the final state read at the result buffer and at the two arguments: the result buffer holds the
    last boundary's contents, the arguments their launch contents. -/
theorem run_kept : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c)⟩)

end Cert.NormScan.Ker

end
-- ==== Proof.KernelCols.lean ====
/-
  Indices of a column array [n,1,1]: each is its first coordinate followed by two zeros, so a sum over all
  its indices is the sum over the first coordinate; and the zero offsets of a rank-3 block, however spelt.
-/
import Idealize.ShloMosaic.PureOps.Ideal
import Idealize.ShloMosaic.Lib.ValueIdx

set_option maxRecDepth 16384

noncomputable section

open scoped BigOperators

namespace Cert.NormScan.Ker

open Idealize.ShloMosaic Idealize.ShloMosaic.ValueIdx

/-- An index of a column array is its first coordinate followed by two zeros. -/
theorem eq_ix3_col {n : Nat} (j : (⟨3, ![n, 1, 1]⟩ : Shape).Idx) : j = ix3 (j 0) 0 0 := by
  funext a
  match a with
  | ⟨0, _⟩ => rfl
  | ⟨1, _⟩ => exact Subsingleton.elim (α := Fin 1) _ _
  | ⟨2, _⟩ => exact Subsingleton.elim (α := Fin 1) _ _

/-- The first coordinates are the indices of a column array. -/
def colEquiv (n : Nat) : Fin n ≃ (⟨3, ![n, 1, 1]⟩ : Shape).Idx where
  toFun b := ix3 b 0 0
  invFun j := j 0
  left_inv _ := rfl
  right_inv j := (eq_ix3_col j).symm

/-- A sum over every index of a column array is the sum over its first coordinate. -/
theorem sum_col {M : Type*} [AddCommMonoid M] {n : Nat} (f : (⟨3, ![n, 1, 1]⟩ : Shape).Idx → M) :
    ∑ j : (⟨3, ![n, 1, 1]⟩ : Shape).Idx, f j = ∑ b : Fin n, f (ix3 b 0 0) :=
  (Fintype.sum_equiv (colEquiv n) _ _ fun _ => rfl).symm

/-- The zero offsets of a rank-3 block. -/
theorem hz3 : (![0, 0, 0] : Fin 3 → Nat) = fun _ => 0 := funext fun a => by fin_cases a <;> rfl

end Cert.NormScan.Ker

end
-- ==== Proof.KernelTail.lean ====
/-
  The host tail of the kernel program at the extended reals: the scalar result is zero plus the sum of the
  256 entries of the masked kernel's output array, divided by the word 256.0.
-/
import proofs.«161543_j18021682774593_1_alg».proof.Proof.Gen.KernelIdeal.Frame
import proofs.«161543_j18021682774593_1_alg».proof.Proof.Spec
import proofs.«161543_j18021682774593_1_alg».proof.Proof.KernelCols
import Idealize.ShloMosaic.Lib.StableHlo.Run
import Idealize.ShloMosaic.Lib.IdealHost
import Idealize.ShloMosaic.PureOps.Ideal.Laws

set_option maxRecDepth 16384

noncomputable section

open scoped BigOperators

namespace Cert.NormScan.Ker

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.NormScan

variable (m : (ℓ : Loc nD τ sig) → Buf (Elt Ideal) ℓ) (ρ : Dev nD → PrngReg)

/-- The last boundary's contents at the result buffer: the host operations applied to the second region's output array. -/
theorem tail_ops (c : Dev nD) :
    W3 (F := Ideal) m ρ c (Proc.devRef .tc main_v3)
      = Host.divf (F := Ideal) (Host.reduceAdd (F := Ideal) (W2 m ρ c (Proc.devRef .tc main_v1)) (constant (F := Ideal) S_ .f32 0x00000000#32) reducesTo_S256x1x1_S_d0_1_2 h_S_)
          (constant (F := Ideal) S_ .f32 0x43800000#32) := by
  show StableHlo.after hostOps2 _ (Proc.devRef .tc main_v3) = _
  after_results

/-- At the extended reals: zero plus the sum of the array's 256 entries, divided by the word 256.0. -/
theorem tail_value (c : Dev nD) (N : S256x1x1.Idx → EReal)
    (hN : (W2 (F := Ideal) m ρ c (Proc.devRef .tc main_v1) : S256x1x1.Idx → EReal) = N) :
    (W3 (F := Ideal) m ρ c (Proc.devRef .tc main_v3) : S_.Idx → EReal)
      = fun _ => Ideal.div (Ideal.ofBits .f32 0x00000000#32 + ∑ b : Fin 256, N (ix3 b 0 0)) (Ideal.ofBits .f32 0x43800000#32) := by
  rw [tail_ops, hN]
  funext j
  rw [hostDivf_apply, hostReduceAdd_apply, Ideal.hostReduceAdd_total _ (fun b => b.elim0)]
  have hs : ∑ i : S256x1x1.Idx, N i = ∑ b : Fin 256, N (ix3 b 0 0) := sum_col (n := 256) N
  erw [hs]
  rfl

end Cert.NormScan.Ker

end
-- ==== Proof.LibKeepdims.lean ====
/-
  Layout operations of a keepdims reduction read at an index given by coordinates: a TRAILING unit axis added by a
  shape cast ([a, b] viewed [a, b, 1], and [a, 1] viewed [a, 1, 1]), and a column of per-row values [a, 1, 1]
  broadcast over an [a, b, c] block.  Each is the general reading of the operation (`shapeCast_apply`: equal
  row-major positions; `broadcastTo_apply`: zero on the operand's unit axes) with both indices written by coordinates.
-/
import Idealize.ShloMosaic.Lib.Pipeline.Value
import Idealize.ShloMosaic.Lib.ValueLayout

namespace Cert.LibKeepdims

open Idealize.ShloMosaic Idealize.ShloMosaic.ValueIdx

variable {α : Type}

/-- An `[a, b]` array cast to `[a, b, 1]` reads, at `(i, j, u)`, the operand at `(i, j)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` column cast to `[a, 1, 1]` reads, at `(i, u, u')`, the operand at `(i, 0)`, whatever the unit
    coordinates. -/
theorem shapeCast_a1_a11_apply {a : ℕ} (x : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ x h (ix3 i u u') = x (ix2 i (0 : Fin 1)) :=
  shapeCast_apply x h _ _ (by
    have hu : u.val = 0 := by omega
    have hu' : u'.val = 0 := by omega
    rw [Shape.rowMajor_val_three, Shape.rowMajor_val_two]
    show i.val * 1 + 0 = (i.val * 1 + u.val) * 1 + u'.val
    rw [hu, hu', Nat.mul_one, Nat.add_zero, Nat.mul_one, Nat.add_zero])

/-- An `[a, 1, 1]` column of per-row values broadcast to `[a, b, c]` reads, at `(i, j, k)`, row `i`'s value. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

end Cert.LibKeepdims
-- ==== Proof.KernelPay.lean ====
/-
  The kernel bodies' stored values read at one batch row of a block, at the extended reals: the first body's
  two stores are the row's mean and its unbiased standard deviation, the second body's store is the row's
  masked mean of the negated normalized values, each as the slab sums of the specification.
-/
import proofs.«161543_j18021682774593_1_alg».proof.Proof.Gen.KernelIdeal.Skeleton
import proofs.«161543_j18021682774593_1_alg».proof.Proof.Spec
import proofs.«161543_j18021682774593_1_alg».proof.Proof.LibKeepdims
import Idealize.ShloMosaic.PureOps.Ideal.Laws
import Idealize.ShloMosaic.Lib.Pipeline.Value
import Idealize.ShloMosaic.Lib.ValueLayout

noncomputable section

open scoped BigOperators

namespace Cert.NormScan.Pay

open Idealize.ShloMosaic Idealize.ShloMosaic.ValueIdx Cert.NormScan Cert.KernelIdeal Cert.KernelIdeal.Gen Cert.LibKeepdims

/-- The lane sum of a [16, 256, 256] block at (p, h) is the sum over the lanes w of the block at (p, h, w). -/
theorem laneSum_apply (v : FVec Ideal S16x256x256 .f32) (hr : S16x256x256.Reduces [2] S16x256) (hφ : FKind.Formats .f32)
    (hacc : (0x00000000#32 : BitVec 32) = 0x00000000#32) (p : Fin 16) (h : Fin 256) :
    multiReduction .add [2] S16x256 v 0x00000000#32 hr hφ hacc (ix2 p h) = ∑ w : Fin 256, v (ix3 p h w) := by
  refine (Ideal.multiReduction_add_single v 0x00000000#32 hr hφ hacc (ix2 p h)).trans ?_
  refine Finset.sum_congr rfl fun w _ => congrArg v (funext fun a => ?_)
  match a with
  | ⟨0, _⟩ => exact Fin.ext rfl
  | ⟨1, _⟩ => exact Fin.ext rfl
  | ⟨2, _⟩ => exact Fin.ext rfl

/-- The row sum of a [16, 256, 1] column at (p, 0) is the sum over the rows h of the column at (p, h, 0). -/
theorem rowSum_apply (v : FVec Ideal S16x256x1 .f32) (hr : S16x256x1.Reduces [1] S16x1) (hφ : FKind.Formats .f32)
    (hacc : (0x00000000#32 : BitVec 32) = 0x00000000#32) (p : Fin 16) (u : Fin 1) :
    multiReduction .add [1] S16x1 v 0x00000000#32 hr hφ hacc (ix2 p u) = ∑ h : Fin 256, v (ix3 p h u) := by
  refine (Ideal.multiReduction_add_single v 0x00000000#32 hr hφ hacc (ix2 p u)).trans ?_
  refine Finset.sum_congr rfl fun w _ => congrArg v (funext fun a => ?_)
  match a with
  | ⟨0, _⟩ => exact Fin.ext rfl
  | ⟨1, _⟩ => exact Fin.ext rfl
  | ⟨2, _⟩ => exact Fin.ext rfl

/-- The keepdims sum over lanes, then over rows, of a [16, 256, 256] block, read at row p, is the slab sum of the
    block's slab p. -/
theorem slabSum_apply (v : FVec Ideal S16x256x256 .f32) (hr2 : S16x256x256.Reduces [2] S16x256)
    (hc1 : S16x256.ShapeCasts S16x256x1) (hr1 : S16x256x1.Reduces [1] S16x1) (hc2 : S16x1.ShapeCasts S16x1x1)
    (hφ hφ' : FKind.Formats .f32) (hacc hacc' : (0x00000000#32 : BitVec 32) = 0x00000000#32) (p : Fin 16) (u u' : Fin 1) :
    shapeCast S16x1x1 (multiReduction .add [1] S16x1
        (shapeCast S16x256x1 (multiReduction .add [2] S16x256 v 0x00000000#32 hr2 hφ hacc) hc1)
        0x00000000#32 hr1 hφ' hacc') hc2 (ix3 p u u')
      = slab (fun h w => v (ix3 p h w)) := by
  refine (shapeCast_a1_a11_apply _ hc2 p u u').trans ?_
  refine (rowSum_apply _ hr1 hφ' hacc' p 0).trans ?_
  unfold slab
  refine Finset.sum_congr rfl fun h _ => ?_
  refine (shapeCast_ab_ab1_apply _ hc1 p h 0).trans ?_
  exact laneSum_apply v hr2 hφ hacc p h

/-- Row `p` of the first store of the statistics body: the mean of the block's slab `p`. -/
theorem pay_mean (x0 : Vec Ideal S16x256x256 .f32) (p : Fin 16) :
    k0_pay1 (F := Ideal) x0 (ix3 p 0 0) = meanOf (fun h w => x0 (ix3 p h w)) := by
  unfold k0_pay1
  refine (congrArg₂ (· * ·) (slabSum_apply x0 _ _ _ _ _ _ _ _ p 0 0)
    (IdealRules.named_const.ideal_named_scalar _ _ _ _ rfl)).trans ?_
  rfl

/-- Row `p` of its second store: the unbiased standard deviation of the block's slab `p`. -/
theorem pay_std (x0 : Vec Ideal S16x256x256 .f32) (p : Fin 16) :
    k0_pay2 (F := Ideal) x0 (ix3 p 0 0) = stdOf (fun h w => x0 (ix3 p h w)) := by
  unfold k0_pay2
  refine (congrArg Ideal.sqrt (congrArg₂ (· * ·) (slabSum_apply _ _ _ _ _ _ _ _ _ p 0 0)
    (IdealRules.named_const.ideal_named_scalar _ _ _ _ rfl))).trans ?_
  unfold stdOf
  refine congrArg Ideal.sqrt (congrArg₂ (· * ·) (congrArg slab (funext fun h => funext fun w => ?_)) rfl)
  have hb : broadcastTo S16x256x256 (k0_pay1 (F := Ideal) x0) broadcasts_S16x1x1_S16x256x256 (ix3 p h w)
      = meanOf (fun h w => x0 (ix3 p h w)) :=
    (broadcastTo_a11_abc_apply _ _ p h w).trans (pay_mean x0 p)
  show (x0 (ix3 p h w) - broadcastTo S16x256x256 (k0_pay1 (F := Ideal) x0) broadcasts_S16x1x1_S16x256x256 (ix3 p h w))
      * (x0 (ix3 p h w) - broadcastTo S16x256x256 (k0_pay1 (F := Ideal) x0) broadcasts_S16x1x1_S16x256x256 (ix3 p h w)) = _
  rw [hb]

/-- A one-bit word zero-extended to 32 bits and read as a signed integer is the bit's value. -/
theorem toInt_setWidth_bit (b : BitVec 1) : (b.setWidth 32).toInt = (b.toNat : ℤ) := by
  rcases BitVec.eq_zero_or_eq_one b with h | h <;> subst h <;> decide

/-- … so its real value is the bit's. -/
theorem bit_cast (b : BitVec 1) : (((b.setWidth 32).toInt : ℝ) : EReal) = ((b.toNat : ℝ) : EReal) := by
  rw [toInt_setWidth_bit, Int.cast_natCast]

/-- Row `p` of the masked body's store, from the input block `x0`, the target block `x1` and the blocks
    `x2`, `x3` of the two statistics arrays. -/
theorem pay_nss (x0 : Vec Ideal S16x256x256 .f32) (x1 : Vec Ideal S16x256x256 .i32) (x2 x3 : Vec Ideal S16x1x1 .f32)
    (p : Fin 16) :
    k1_pay1 (F := Ideal) x0 x1 x2 x3 (ix3 p 0 0)
      = nssOf (fun h w => x0 (ix3 p h w)) (fun h w => maskOf (x1 (ix3 p h w))) (x2 (ix3 p 0 0)) (x3 (ix3 p 0 0)) := by
  unfold k1_pay1
  refine (congrArg₂ (· * ·) (slabSum_apply _ _ _ _ _ _ _ _ _ p 0 0)
    (IdealRules.named_const.ideal_named_scalar _ _ _ _ rfl)).trans ?_
  unfold nssOf
  refine congrArg₂ (· * ·) (congrArg slab (funext fun h => funext fun w => ?_)) rfl
  have hcol : ∀ y : Vec Ideal S16x1x1 .f32,
      broadcastTo S16x256x256 (shapeCast S16x1x1 y shapeCasts_S16x1x1_S16x1x1) broadcasts_S16x1x1_S16x256x256 (ix3 p h w)
        = y (ix3 p 0 0) := fun y =>
    (broadcastTo_a11_abc_apply _ _ p h w).trans (congrFun (shapeCast_self y _) _)
  show Ideal.ofBits .f32 0xBF800000#32
        * Ideal.div (x0 (ix3 p h w)
            - broadcastTo S16x256x256 (shapeCast S16x1x1 x2 shapeCasts_S16x1x1_S16x1x1) broadcasts_S16x1x1_S16x256x256 (ix3 p h w))
          (broadcastTo S16x256x256 (shapeCast S16x1x1 x3 shapeCasts_S16x1x1_S16x1x1) broadcasts_S16x1x1_S16x256x256 (ix3 p h w))
        * ((((IntOp.cmpi .ne (x1 (ix3 p h w)) 0#32).setWidth 32).toInt : ℝ) : EReal) = _
  rw [hcol x2, hcol x3, bit_cast]
  rfl

end Cert.NormScan.Pay

end
-- ==== Proof.KernelStats.lean ====
/-
  The statistics kernel's two output arrays after its run, at the extended reals: entry b of the first is the
  mean of the input's slab b, entry b of the second that slab's unbiased standard deviation. Each of the 16 grid
  points writes back a block of 16 entries computed from the 16 slabs of its input block, and the 16 blocks
  cover the 256 entries.
-/
import proofs.«161543_j18021682774593_1_alg».proof.Proof.Gen.KernelIdeal.Frame
import proofs.«161543_j18021682774593_1_alg».proof.Proof.Spec
import proofs.«161543_j18021682774593_1_alg».proof.Proof.KernelCols
import proofs.«161543_j18021682774593_1_alg».proof.Proof.KernelPay
import Idealize.ShloMosaic.Lib.Pipeline.Value

set_option maxRecDepth 16384

noncomputable section

open scoped BigOperators

namespace Cert.NormScan.Ker

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.NormScan

variable (V : (c : Dev nD) → (b : Ref sig .tc) → Buf (Elt Ideal) ((c : Thread nD τ).loc b))

/-- The index maps of the statistics kernel, decided over its grid: every window's block index at point t is (t, 0, 0). -/
theorem idx_stats : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block at point t is slabs 16 t … 16 t + 15 of the input array. -/
theorem stats_in_apply (c : Dev nD) (t : Fin cfg0.N) (x : S16x256x256.Idx) (k : S256x256x256.Idx)
    (hk0 : (k 0).val = 16 * t.val + (x 0).val) (hk1 : (k 1).val = (x 1).val) (hk2 : (k 2).val = (x 2).val) :
    (iblk0 V c 0 t : Vec Ideal S16x256x256 .f32) x = (V c main_arg0 : S256x256x256.Idx → EReal) k := by
  obtain ⟨e0, e1, e2, -⟩ := idx_stats t
  unfold iblk0
  rw [View.read_apply]
  show (V c main_arg0 : S256x256x256.Idx → EReal) _ = V c main_arg0 _
  congr 1
  funext a
  apply Fin.ext
  match a with
  | ⟨0, _⟩ => show win0_0.index t (0 : Fin 3) * 16 + 1 * (x 0).val = (k 0).val; rw [e0, hk0]; omega
  | ⟨1, _⟩ => show win0_0.index t (1 : Fin 3) * 256 + 1 * (x 1).val = (k 1).val; rw [e1, hk1]; omega
  | ⟨2, _⟩ => show win0_0.index t (2 : Fin 3) * 256 + 1 * (x 2).val = (k 2).val; rw [e2, hk2]; omega

/-- Row p of the body's first store, when slab p of its block is slab b of an array: that slab's mean. -/
theorem mean_block (x0 : Vec Ideal S16x256x256 .f32) (X : A3.Idx → EReal) (p : Fin 16) (b : Fin 256)
    (h0 : ∀ h w, x0 (ix3 p h w) = X (ix3 b h w)) :
    k0_pay1 (F := Ideal) x0 (ix3 p 0 0) = meanOf (row X b) := by
  rw [Pay.pay_mean]
  unfold row
  simp only [h0]

/-- Row p of its second store: that slab's unbiased standard deviation. -/
theorem std_block (x0 : Vec Ideal S16x256x256 .f32) (X : A3.Idx → EReal) (p : Fin 16) (b : Fin 256)
    (h0 : ∀ h w, x0 (ix3 p h w) = X (ix3 b h w)) :
    k0_pay2 (F := Ideal) x0 (ix3 p 0 0) = stdOf (row X b) := by
  rw [Pay.pay_std]
  unfold row
  simp only [h0]

/-- The array of the slabs' means, and of their standard deviations. -/
abbrev meanArr (X : A3.Idx → EReal) : S256x1x1.Idx → EReal := fun j => meanOf (row X (j 0))
abbrev stdArr (X : A3.Idx → EReal) : S256x1x1.Idx → EReal := fun j => stdOf (row X (j 0))

/-- What point t writes back to the first output is block t of the array of means. -/
theorem mean_flushed (c : Dev nD) (t : Fin cfg0.N) :
    (dat0 V c).flushed 1 t = ((cfg0.win 1).blk t).view.read (Elt Ideal) (meanArr (V c main_arg0)) := by
  show (cfg0.win 1).cut (grid0.coords t) ((dat0 V c).after 1 t) = _
  rw [after0_1]
  unfold out0_1
  rw [View.canon_unit_zero hz3]
  simp only [View.ld_unit_zero (S := S16x256x256) hz3]
  obtain ⟨-, -, -, e0, -⟩ := idx_stats t
  have key : ∀ y : S16x1x1.Idx, k0_pay1 (F := Ideal) (iblk0 V c 0 t) y
      = meanArr (V c main_arg0) (((cfg0.win 1).blk t).view.emb y) := by
    intro y
    obtain ⟨p, rfl⟩ : ∃ p : Fin 16, y = ix3 p 0 0 := ⟨y 0, eq_ix3_col y⟩
    refine mean_block (iblk0 V c 0 t) (V c main_arg0) p _ fun h w => ?_
    refine stats_in_apply V c t (ix3 p h w) _ ?_ rfl rfl
    show win0_1.index t (0 : Fin 3) * 16 + 1 * p.val = 16 * t.val + p.val
    rw [e0]; omega
  funext y
  exact key y

/-- What point t writes back to the second output is block t of the array of standard deviations. -/
theorem std_flushed (c : Dev nD) (t : Fin cfg0.N) :
    (dat0 V c).flushed 2 t = ((cfg0.win 2).blk t).view.read (Elt Ideal) (stdArr (V c main_arg0)) := by
  show (cfg0.win 2).cut (grid0.coords t) ((dat0 V c).after 2 t) = _
  rw [after0_2]
  unfold out0_2
  rw [View.canon_unit_zero hz3]
  simp only [View.ld_unit_zero (S := S16x256x256) hz3]
  obtain ⟨-, -, -, -, -, -, e0, -⟩ := idx_stats t
  have key : ∀ y : S16x1x1.Idx, k0_pay2 (F := Ideal) (iblk0 V c 0 t) y
      = stdArr (V c main_arg0) (((cfg0.win 2).blk t).view.emb y) := by
    intro y
    obtain ⟨p, rfl⟩ : ∃ p : Fin 16, y = ix3 p 0 0 := ⟨y 0, eq_ix3_col y⟩
    refine std_block (iblk0 V c 0 t) (V c main_arg0) p _ fun h w => ?_
    refine stats_in_apply V c t (ix3 p h w) _ ?_ rfl rfl
    show win0_2.index t (0 : Fin 3) * 16 + 1 * p.val = 16 * t.val + p.val
    rw [e0]; omega
  funext y
  exact key y

/-- An index of the first output is in point t's block iff each coordinate is in the block's range on its axis. -/
theorem mem_mean_blk (t : Fin cfg0.N) (i : S256x1x1.Idx) :
    i ∈ ((cfg0.win 1).blk t).view.set ↔ ∀ a : Fin 3, win0_1.index t a * S16x1x1.size a ≤ (i a).val ∧ (i a).val < win0_1.index t a * S16x1x1.size a + S16x1x1.size a := by
  show i ∈ ((View.whole main_v0_0).slice (win0_1.rect t)).set ↔ _
  rw [View.set_slice_whole, Rect.mem_set_unit]
  exact Iff.rfl

theorem mem_std_blk (t : Fin cfg0.N) (i : S256x1x1.Idx) :
    i ∈ ((cfg0.win 2).blk t).view.set ↔ ∀ a : Fin 3, win0_2.index t a * S16x1x1.size a ≤ (i a).val ∧ (i a).val < win0_2.index t a * S16x1x1.size a + S16x1x1.size a := by
  show i ∈ ((View.whole main_v0_1).slice (win0_2.rect t)).set ↔ _
  rw [View.set_slice_whole, Rect.mem_set_unit]
  exact Iff.rfl

/-- Entry b of either output is in the block of point b / 16. -/
theorem mean_cover (i : S256x1x1.Idx) : ∃ t : Fin cfg0.N, (cfg0.win 1).flush t = true ∧ i ∈ ((cfg0.win 1).blk t).view.set := by
  have hi0 : (i 0).val < 256 := (i 0).isLt
  have hi1 : (i 1).val < 1 := (i 1).isLt
  have hi2 : (i 2).val < 1 := (i 2).isLt
  have hN : cfg0.N = 16 := N_0
  obtain ⟨t, ht⟩ : ∃ t : Fin cfg0.N, t.val = (i 0).val / 16 := ⟨⟨(i 0).val / 16, by omega⟩, rfl⟩
  refine ⟨t, flush0_1 t, ?_⟩
  rw [mem_mean_blk]
  obtain ⟨-, -, -, e0, e1, e2, -⟩ := idx_stats t
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 1 ≤ (i 1).val ∧ (i 1).val < win0_1.index t (1 : Fin 3) * 1 + 1; omega
  | ⟨2, _⟩ => show win0_1.index t (2 : Fin 3) * 1 ≤ (i 2).val ∧ (i 2).val < win0_1.index t (2 : Fin 3) * 1 + 1; omega

theorem std_cover (i : S256x1x1.Idx) : ∃ t : Fin cfg0.N, (cfg0.win 2).flush t = true ∧ i ∈ ((cfg0.win 2).blk t).view.set := by
  have hi0 : (i 0).val < 256 := (i 0).isLt
  have hi1 : (i 1).val < 1 := (i 1).isLt
  have hi2 : (i 2).val < 1 := (i 2).isLt
  have hN : cfg0.N = 16 := N_0
  obtain ⟨t, ht⟩ : ∃ t : Fin cfg0.N, t.val = (i 0).val / 16 := ⟨⟨(i 0).val / 16, by omega⟩, rfl⟩
  refine ⟨t, flush0_2 t, ?_⟩
  rw [mem_std_blk]
  obtain ⟨-, -, -, -, -, -, e0, e1, e2⟩ := idx_stats t
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 1 ≤ (i 1).val ∧ (i 1).val < win0_2.index t (1 : Fin 3) * 1 + 1; omega
  | ⟨2, _⟩ => show win0_2.index t (2 : Fin 3) * 1 ≤ (i 2).val ∧ (i 2).val < win0_2.index t (2 : Fin 3) * 1 + 1; omega

/-- The first output array after the run: the slabs' means. -/
theorem mean_final (c : Dev nD) : (dat0 V c).arrAt 1 cfg0.N = meanArr (V c main_arg0) :=
  (dat0 V c).arrAt_eq_of_cover 1 (meanArr (V c main_arg0)) (fun t _ => mean_flushed V c t) mean_cover

/-- The second output array after the run: the slabs' standard deviations. -/
theorem std_final (c : Dev nD) : (dat0 V c).arrAt 2 cfg0.N = stdArr (V c main_arg0) :=
  (dat0 V c).arrAt_eq_of_cover 2 (stdArr (V c main_arg0)) (fun t _ => std_flushed V c t) std_cover

/-- The same two arrays with the entries spelt out. -/
theorem arr_mean (c : Dev nD) :
    (dat0 (F := Ideal) V c).arrAt 1 cfg0.N = fun j => meanOf (row (V c main_arg0) (j 0)) := mean_final V c

theorem arr_std (c : Dev nD) :
    (dat0 (F := Ideal) V c).arrAt 2 cfg0.N = fun j => stdOf (row (V c main_arg0) (j 0)) := std_final V c

end Cert.NormScan.Ker

end
-- ==== Proof.KernelMasked.lean ====
/-
  The masked kernel's output array after its run, at the extended reals: entry b is the masked mean of the
  negated normalized values of the input's slab b, normalized by entry b of the two statistics arrays the kernel
  is given. Each of the 16 grid points writes back a block of 16 entries computed from rows of its four input
  blocks, and the 16 blocks cover the 256 entries.
-/
import proofs.«161543_j18021682774593_1_alg».proof.Proof.Gen.KernelIdeal.Frame
import proofs.«161543_j18021682774593_1_alg».proof.Proof.Spec
import proofs.«161543_j18021682774593_1_alg».proof.Proof.KernelCols
import proofs.«161543_j18021682774593_1_alg».proof.Proof.KernelPay
import Idealize.ShloMosaic.Lib.Pipeline.Value

set_option maxRecDepth 16384

noncomputable section

open scoped BigOperators

namespace Cert.NormScan.Ker

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.NormScan

variable (V : (c : Dev nD) → (b : Ref sig .tc) → Buf (Elt Ideal) ((c : Thread nD τ).loc b))

/-- The index maps of the masked kernel, decided over its grid: every window's block index at point t is (t, 0, 0). -/
theorem idx_masked : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-- The input block at point t is slabs 16 t … 16 t + 15 of the input array. -/
theorem masked_x_apply (c : Dev nD) (t : Fin cfg1.N) (x : S16x256x256.Idx) (k : S256x256x256.Idx)
    (hk0 : (k 0).val = 16 * t.val + (x 0).val) (hk1 : (k 1).val = (x 1).val) (hk2 : (k 2).val = (x 2).val) :
    (iblk1 V c 0 t : Vec Ideal S16x256x256 .f32) x = (V c main_arg0 : S256x256x256.Idx → EReal) k := by
  obtain ⟨⟨e0, e1, e2⟩, -⟩ := idx_masked t
  unfold iblk1
  rw [View.read_apply]
  show (V c main_arg0 : S256x256x256.Idx → EReal) _ = V c main_arg0 _
  congr 1
  funext a
  apply Fin.ext
  match a with
  | ⟨0, _⟩ => show win1_0.index t (0 : Fin 3) * 16 + 1 * (x 0).val = (k 0).val; rw [e0, hk0]; omega
  | ⟨1, _⟩ => show win1_0.index t (1 : Fin 3) * 256 + 1 * (x 1).val = (k 1).val; rw [e1, hk1]; omega
  | ⟨2, _⟩ => show win1_0.index t (2 : Fin 3) * 256 + 1 * (x 2).val = (k 2).val; rw [e2, hk2]; omega

/-- The target block at point t is slabs 16 t … 16 t + 15 of the target array. -/
theorem masked_tg_apply (c : Dev nD) (t : Fin cfg1.N) (x : S16x256x256.Idx) (k : S256x256x256.Idx)
    (hk0 : (k 0).val = 16 * t.val + (x 0).val) (hk1 : (k 1).val = (x 1).val) (hk2 : (k 2).val = (x 2).val) :
    (iblk1 V c 1 t : Vec Ideal S16x256x256 .i32) x = (V c main_arg1 : S256x256x256.Idx → BitVec 32) k := by
  obtain ⟨-, ⟨e0, e1, e2⟩, -⟩ := idx_masked t
  unfold iblk1
  rw [View.read_apply]
  show (V c main_arg1 : S256x256x256.Idx → BitVec 32) _ = V c main_arg1 _
  congr 1
  funext a
  apply Fin.ext
  match a with
  | ⟨0, _⟩ => show win1_1.index t (0 : Fin 3) * 16 + 1 * (x 0).val = (k 0).val; rw [e0, hk0]; omega
  | ⟨1, _⟩ => show win1_1.index t (1 : Fin 3) * 256 + 1 * (x 1).val = (k 1).val; rw [e1, hk1]; omega
  | ⟨2, _⟩ => show win1_1.index t (2 : Fin 3) * 256 + 1 * (x 2).val = (k 2).val; rw [e2, hk2]; omega

/-- The block of the first statistics array at point t is its entries 16 t … 16 t + 15. -/
theorem masked_mean_apply (c : Dev nD) (t : Fin cfg1.N) (x : S16x1x1.Idx) (k : S256x1x1.Idx)
    (hk0 : (k 0).val = 16 * t.val + (x 0).val) (hk1 : (k 1).val = (x 1).val) (hk2 : (k 2).val = (x 2).val) :
    (iblk1 V c 2 t : Vec Ideal S16x1x1 .f32) x = (V c main_v0_0 : S256x1x1.Idx → EReal) k := by
  obtain ⟨-, -, ⟨e0, e1, e2⟩, -⟩ := idx_masked t
  unfold iblk1
  rw [View.read_apply]
  show (V c main_v0_0 : S256x1x1.Idx → EReal) _ = V c main_v0_0 _
  congr 1
  funext a
  apply Fin.ext
  match a with
  | ⟨0, _⟩ => show win1_2.index t (0 : Fin 3) * 16 + 1 * (x 0).val = (k 0).val; rw [e0, hk0]; omega
  | ⟨1, _⟩ => show win1_2.index t (1 : Fin 3) * 1 + 1 * (x 1).val = (k 1).val; rw [e1, hk1]; omega
  | ⟨2, _⟩ => show win1_2.index t (2 : Fin 3) * 1 + 1 * (x 2).val = (k 2).val; rw [e2, hk2]; omega

/-- The block of the second statistics array at point t is its entries 16 t … 16 t + 15. -/
theorem masked_std_apply (c : Dev nD) (t : Fin cfg1.N) (x : S16x1x1.Idx) (k : S256x1x1.Idx)
    (hk0 : (k 0).val = 16 * t.val + (x 0).val) (hk1 : (k 1).val = (x 1).val) (hk2 : (k 2).val = (x 2).val) :
    (iblk1 V c 3 t : Vec Ideal S16x1x1 .f32) x = (V c main_v0_1 : S256x1x1.Idx → EReal) k := by
  obtain ⟨-, -, -, ⟨e0, e1, e2⟩, -⟩ := idx_masked t
  unfold iblk1
  rw [View.read_apply]
  show (V c main_v0_1 : S256x1x1.Idx → EReal) _ = V c main_v0_1 _
  congr 1
  funext a
  apply Fin.ext
  match a with
  | ⟨0, _⟩ => show win1_3.index t (0 : Fin 3) * 16 + 1 * (x 0).val = (k 0).val; rw [e0, hk0]; omega
  | ⟨1, _⟩ => show win1_3.index t (1 : Fin 3) * 1 + 1 * (x 1).val = (k 1).val; rw [e1, hk1]; omega
  | ⟨2, _⟩ => show win1_3.index t (2 : Fin 3) * 1 + 1 * (x 2).val = (k 2).val; rw [e2, hk2]; omega

/-- Row p of the body's store, when row p of each of its four blocks is row b of an array: slab b's masked mean
    of the negated normalized values, centred and scaled by entry b of the two statistics arrays. -/
theorem nss_block (x0 : Vec Ideal S16x256x256 .f32) (x1 : Vec Ideal S16x256x256 .i32) (x2 x3 : Vec Ideal S16x1x1 .f32)
    (X : A3.Idx → EReal) (T : A3.Idx → BitVec 32) (Mn Sd : S256x1x1.Idx → EReal) (p : Fin 16) (b : Fin 256)
    (h0 : ∀ h w, x0 (ix3 p h w) = X (ix3 b h w)) (h1 : ∀ h w, x1 (ix3 p h w) = T (ix3 b h w))
    (h2 : x2 (ix3 p 0 0) = Mn (ix3 b 0 0)) (h3 : x3 (ix3 p 0 0) = Sd (ix3 b 0 0)) :
    k1_pay1 (F := Ideal) x0 x1 x2 x3 (ix3 p 0 0) = nssOf (row X b) (mrow T b) (Mn (ix3 b 0 0)) (Sd (ix3 b 0 0)) := by
  rw [Pay.pay_nss, h2, h3]
  unfold row mrow
  simp only [h0, h1]

/-- The array of the slabs' statistics, for given arrays of centres and scales. -/
abbrev nssArr (X : A3.Idx → EReal) (T : A3.Idx → BitVec 32) (Mn Sd : S256x1x1.Idx → EReal) : S256x1x1.Idx → EReal :=
  fun j => nssOf (row X (j 0)) (mrow T (j 0)) (Mn (ix3 (j 0) 0 0)) (Sd (ix3 (j 0) 0 0))

/-- What point t writes back is block t of the array of statistics. -/
theorem nss_flushed (c : Dev nD) (t : Fin cfg1.N) :
    (dat1 V c).flushed 4 t
      = ((cfg1.win 4).blk t).view.read (Elt Ideal) (nssArr (V c main_arg0) (V c main_arg1) (V c main_v0_0) (V c main_v0_1)) := by
  show (cfg1.win 4).cut (grid1.coords t) ((dat1 V c).after 4 t) = _
  rw [after1_4]
  unfold out1_4
  rw [View.canon_unit_zero hz3]
  simp only [View.ld_unit_zero (S := S16x256x256) hz3, View.ld_unit_zero (S := S16x1x1) hz3]
  obtain ⟨-, -, -, -, ⟨e0, -⟩⟩ := idx_masked t
  have key : ∀ y : S16x1x1.Idx, k1_pay1 (F := Ideal) (iblk1 V c 0 t) (iblk1 V c 1 t) (iblk1 V c 2 t) (iblk1 V c 3 t) y
      = nssArr (V c main_arg0) (V c main_arg1) (V c main_v0_0) (V c main_v0_1) (((cfg1.win 4).blk t).view.emb y) := by
    intro y
    obtain ⟨p, rfl⟩ : ∃ p : Fin 16, y = ix3 p 0 0 := ⟨y 0, eq_ix3_col y⟩
    have hb : win1_4.index t (0 : Fin 3) * 16 + 1 * p.val = 16 * t.val + p.val := by rw [e0]; omega
    refine nss_block (iblk1 V c 0 t) (iblk1 V c 1 t) (iblk1 V c 2 t) (iblk1 V c 3 t)
      (V c main_arg0) (V c main_arg1) (V c main_v0_0) (V c main_v0_1) p _ (fun h w => ?_) (fun h w => ?_) ?_ ?_
    · exact masked_x_apply V c t (ix3 p h w) _ hb rfl rfl
    · exact masked_tg_apply V c t (ix3 p h w) _ hb rfl rfl
    · exact masked_mean_apply V c t (ix3 p 0 0) _ hb rfl rfl
    · exact masked_std_apply V c t (ix3 p 0 0) _ hb rfl rfl
  funext y
  exact key y

/-- An index of the output is in point t's block iff each coordinate is in the block's range on its axis. -/
theorem mem_nss_blk (t : Fin cfg1.N) (i : S256x1x1.Idx) :
    i ∈ ((cfg1.win 4).blk t).view.set ↔ ∀ a : Fin 3, win1_4.index t a * S16x1x1.size a ≤ (i a).val ∧ (i a).val < win1_4.index t a * S16x1x1.size a + S16x1x1.size a := by
  show i ∈ ((View.whole main_v1).slice (win1_4.rect t)).set ↔ _
  rw [View.set_slice_whole, Rect.mem_set_unit]
  exact Iff.rfl

/-- Entry b of the output is in the block of point b / 16. -/
theorem nss_cover (i : S256x1x1.Idx) : ∃ t : Fin cfg1.N, (cfg1.win 4).flush t = true ∧ i ∈ ((cfg1.win 4).blk t).view.set := by
  have hi0 : (i 0).val < 256 := (i 0).isLt
  have hi1 : (i 1).val < 1 := (i 1).isLt
  have hi2 : (i 2).val < 1 := (i 2).isLt
  have hN : cfg1.N = 16 := N_1
  obtain ⟨t, ht⟩ : ∃ t : Fin cfg1.N, t.val = (i 0).val / 16 := ⟨⟨(i 0).val / 16, by omega⟩, rfl⟩
  refine ⟨t, flush1_4 t, ?_⟩
  rw [mem_nss_blk]
  obtain ⟨-, -, -, -, ⟨e0, e1, e2⟩⟩ := idx_masked t
  intro a
  match a with
  | ⟨0, _⟩ => show win1_4.index t (0 : Fin 3) * 16 ≤ (i 0).val ∧ (i 0).val < win1_4.index t (0 : Fin 3) * 16 + 16; omega
  | ⟨1, _⟩ => show win1_4.index t (1 : Fin 3) * 1 ≤ (i 1).val ∧ (i 1).val < win1_4.index t (1 : Fin 3) * 1 + 1; omega
  | ⟨2, _⟩ => show win1_4.index t (2 : Fin 3) * 1 ≤ (i 2).val ∧ (i 2).val < win1_4.index t (2 : Fin 3) * 1 + 1; omega

/-- The output array after the run: the slabs' statistics, from the arrays the kernel is entered with. -/
theorem nss_final (c : Dev nD) :
    (dat1 V c).arrAt 4 cfg1.N = nssArr (V c main_arg0) (V c main_arg1) (V c main_v0_0) (V c main_v0_1) :=
  (dat1 V c).arrAt_eq_of_cover 4 _ (fun t _ => nss_flushed V c t) nss_cover

end Cert.NormScan.Ker

end
-- ==== Proof.KernelEntry.lean ====
/-
  The masked kernel's four input arrays as it finds them: the two argument arrays are as launched (the statistics
  kernel only reads the input and does not touch the target), and the other two are the statistics kernel's result
  arrays, the slabs' means and unbiased standard deviations of the launched input.
-/
import proofs.«161543_j18021682774593_1_alg».proof.Proof.Gen.KernelIdeal.Frame
import proofs.«161543_j18021682774593_1_alg».proof.Proof.KernelStats

noncomputable section

namespace Cert.NormScan.Ker

open Idealize.ShloMosaic Idealize.ShloMosaic.TcCoe Idealize.SL.Sem
open Idealize.ShloMosaic.Pipeline (Dat)
open Cert.KernelIdeal Cert.KernelIdeal.Gen Cert.NormScan

variable (m : (ℓ : Loc nD τ sig) → Buf (Elt Ideal) ℓ) (ρ : Dev nD → PrngReg)

/-- The input array, when the masked kernel starts, is the launched input. -/
theorem entry_x (c : Dev nD) :
    V1 (F := Ideal) m ρ c (Pipeline.arrRef spec1 0) = m ((c : Thread nD τ).loc main_arg0) :=
  (W1_arr m ρ c 0).trans (((dat0 (V0 m ρ) c).arrAt_in 0 rfl _).trans (A_eq0 (V0 m ρ) c 0))

/-- The target array, when the masked kernel starts, is the launched target. -/
theorem entry_t (c : Dev nD) :
    V1 (F := Ideal) m ρ c (Pipeline.arrRef spec1 1) = m ((c : Thread nD τ).loc main_arg1) :=
  W1_of_ne m ρ c main_arg1 (by decide)

/-- The array of means, when the masked kernel starts, holds each slab's mean of the launched input. -/
theorem entry_mean (c : Dev nD) :
    V1 (F := Ideal) m ρ c (Pipeline.arrRef spec1 2) = meanArr (m ((c : Thread nD τ).loc main_arg0)) :=
  (W1_arr m ρ c 1).trans (mean_final (V0 m ρ) c)

/-- The array of standard deviations, when the masked kernel starts, holds each slab's unbiased standard
    deviation of the launched input. -/
theorem entry_std (c : Dev nD) :
    V1 (F := Ideal) m ρ c (Pipeline.arrRef spec1 3) = stdArr (m ((c : Thread nD τ).loc main_arg0)) :=
  (W1_arr m ρ c 2).trans (std_final (V0 m ρ) c)

end Cert.NormScan.Ker

end
-- ==== Proof.KernelValue.lean ====
/-
  The kernel program's run with its result named: the scalar it returns is the specification's result of the
  two argument arrays, which end as launched. The masked kernel is entered with the arguments and with the
  statistics kernel's arrays of means and standard deviations, so its output array holds the 256 statistics; the host
  tail adds them to zero and divides by the word 256.0.
-/
import proofs.«161543_j18021682774593_1_alg».proof.Proof.KernelRun
import proofs.«161543_j18021682774593_1_alg».proof.Proof.KernelTail
import proofs.«161543_j18021682774593_1_alg».proof.Proof.KernelStats
import proofs.«161543_j18021682774593_1_alg».proof.Proof.KernelMasked
import proofs.«161543_j18021682774593_1_alg».proof.Proof.KernelEntry

set_option maxRecDepth 16384

noncomputable section

open scoped BigOperators

namespace Cert.NormScan.Ker

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.NormScan

variable (m : (ℓ : Loc nD τ sig) → Buf (Elt Ideal) ℓ) (ρ : Dev nD → PrngReg)

/-- The masked kernel's output array at the host tail's entry, from the four arrays it is entered with. -/
theorem nss_at_tail (c : Dev nD) (x : A3.Idx → EReal) (tg : A3.Idx → BitVec 32)
    (hx : (V1 (F := Ideal) m ρ c main_arg0 : A3.Idx → EReal) = x)
    (ht : (V1 (F := Ideal) m ρ c main_arg1 : A3.Idx → BitVec 32) = tg)
    (hmean : (V1 (F := Ideal) m ρ c main_v0_0 : S256x1x1.Idx → EReal) = meanArr x)
    (hstd : (V1 (F := Ideal) m ρ c main_v0_1 : S256x1x1.Idx → EReal) = stdArr x) :
    (W2 (F := Ideal) m ρ c (Proc.devRef .tc main_v1) : S256x1x1.Idx → EReal) = nssArr x tg (meanArr x) (stdArr x) := by
  refine (W2_arr m ρ c 4).trans ?_
  rw [nss_final (V1 m ρ) c, hx, ht, hmean, hstd]

/-- The result buffer's last contents: the specification's result of the two arrays the second call reads. -/
theorem result_at_tail (c : Dev nD) (x : A3.Idx → EReal) (tg : A3.Idx → BitVec 32)
    (hx : (V1 (F := Ideal) m ρ c main_arg0 : A3.Idx → EReal) = x)
    (ht : (V1 (F := Ideal) m ρ c main_arg1 : A3.Idx → BitVec 32) = tg)
    (hmean : (V1 (F := Ideal) m ρ c main_v0_0 : S256x1x1.Idx → EReal) = meanArr x)
    (hstd : (V1 (F := Ideal) m ρ c main_v0_1 : S256x1x1.Idx → EReal) = stdArr x) :
    (W3 (F := Ideal) m ρ c (Proc.devRef .tc main_v3) : S_.Idx → EReal) = fun _ => result x tg := by
  rw [tail_value m ρ c _ (nss_at_tail m ρ c x tg hx ht hmean hstd)]
  rfl

/-- THE KERNEL'S RUN, ITS RESULT NAMED: from any launch memory with zero counters every weakly fair execution
    terminates, and in every final state the result buffer holds the specification's result of the two launched
    argument arrays, which are unchanged. -/
theorem kernel_run :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc Cert.KernelIdeal.main_v3) = (fun _ => Cert.NormScan.result (m ((c.tc : Thread nD τ).loc Cert.KernelIdeal.main_arg0)) (m ((c.tc : Thread nD τ).loc Cert.KernelIdeal.main_arg1)))
      ∧ r.2.mem ((c.tc : Thread nD τ).loc Cert.KernelIdeal.main_arg0) = m ((c.tc : Thread nD τ).loc Cert.KernelIdeal.main_arg0)
      ∧ r.2.mem ((c.tc : Thread nD τ).loc Cert.KernelIdeal.main_arg1) = m ((c.tc : Thread nD τ).loc Cert.KernelIdeal.main_arg1)) :=
  (θ_run defs _ _).mono (fun r h c =>
      ⟨(h c).1.trans (result_at_tail m ρ c _ _ (entry_x m ρ c) (entry_t m ρ c) (entry_mean m ρ c) (entry_std m ρ c)),
       (h c).2⟩)
    (run_kept m ρ)

end Cert.NormScan.Ker

end
-- ==== Proof.RefTerm.lean ====
/-
  The reference program's result as one pure term of its two argument arrays: one `have` per operation
  of the program, in program order, the bodies of the functions it calls written at the call.
-/
import proofs.«161543_j18021682774593_1_alg».proof.ReferenceIdeal

noncomputable section

namespace Cert.NormScan.Ref

open Idealize.ShloMosaic Idealize.SL.Sem
open Cert.ReferenceIdeal Cert.ReferenceIdeal.Facts₀

variable {F : FTy → Type} [FloatOps F] [Facts]

/-- The reference's result from the contents of its two arguments. The slabs are flattened to rows of
    65536; per row the sum, the mean (divided by 65536), the centred squares' sum divided by 65536 − 1
    (under a select whose condition is 65535 > 0), its square root, then the masked sum of
    (−1)·((x − mean)/std) divided by 65536, and the mean of the 256 rows' values (0 + their sum, divided by 256). -/
noncomputable def refTerm (a0 : (⟨S256x256x256, .f32⟩ : BufTy).Contents (Elt F))
    (a1 : (⟨S256x256x256, .i32⟩ : BufTy).Contents (Elt F)) : (⟨S_, .f32⟩ : BufTy).Contents (Elt F) :=
  have v0 : FVec F S256x65536 .f32 := shapeCast S256x65536 a0 shapeCasts_S256x256x256_S256x65536
  have v1 : IVec S256x65536 32 := shapeCast S256x65536 a1 shapeCasts_S256x256x256_S256x65536
  have c : IVec S_ 32 := constantI S_ 32 0#32
  have v2 : IVec S256x65536 32 := broadcastInDim S256x65536 ![] bcast_S_S256x65536 c
  have v3 : IVec S256x65536 1 := cmpi .ne v1 v2
  have v4 : FVec F S256x65536 .f32 := uitofp .f32 v3
  have cst : FVec F S_ .f32 := constant S_ .f32 0x00000000#32
  have v5 : FVec F S256 .f32 := Host.reduceAdd v0 cst reducesTo_S256x65536_S256_d1 h_S_
  have v6 : FVec F S256x1 .f32 := broadcastInDim S256x1 ![0] bcast_S256_S256x1_0 v5
  have cst_0 : FVec F S_ .f32 := constant S_ .f32 0x47800000#32
  have v7 : FVec F S256x1 .f32 := broadcastInDim S256x1 ![] bcast_S_S256x1 cst_0
  have v8 : FVec F S256x1 .f32 := Host.divf v6 v7
  have c_1 : IVec S_ 32 := constantI S_ 32 1#32
  -- the standard deviation's function, on (v0, c_1): first the variance's function on the same pair
  have s_cst : FVec F S_ .f32 := constant S_ .f32 0x00000000#32
  have s_v0 : FVec F S256 .f32 := Host.reduceAdd v0 s_cst reducesTo_S256x65536_S256_d1 h_S_
  have s_v1 : FVec F S256x1 .f32 := broadcastInDim S256x1 ![0] bcast_S256_S256x1_0 s_v0
  have s_cst_0 : FVec F S_ .f32 := constant S_ .f32 0x47800000#32
  have s_v2 : FVec F S256x1 .f32 := broadcastInDim S256x1 ![] bcast_S_S256x1 s_cst_0
  have s_v3 : FVec F S256x1 .f32 := Host.divf s_v1 s_v2
  have s_v4 : FVec F S256x65536 .f32 := broadcastInDim S256x65536 ![0, 1] bcast_S256x1_S256x65536_0_1 s_v3
  have s_v5 : FVec F S256x65536 .f32 := subf v0 s_v4
  have s_v6 : FVec F S256x65536 .f32 := mulf s_v5 s_v5
  have s_v7 : FVec F S_ .f32 := sitofp .f32 c_1
  have s_cst_1 : FVec F S_ .f32 := constant S_ .f32 0x47800000#32
  have s_v8 : FVec F S_ .f32 := subf s_cst_1 s_v7
  have s_cst_2 : FVec F S_ .f32 := constant S_ .f32 0x00000000#32
  have s_v9 : FVec F S256 .f32 := Host.reduceAdd s_v6 s_cst_2 reducesTo_S256x65536_S256_d1 h_S_
  have s_v10 : FVec F S256x1 .f32 := broadcastInDim S256x1 ![0] bcast_S256_S256x1_0 s_v9
  have s_v11 : FVec F S256x1 .f32 := broadcastInDim S256x1 ![] bcast_S_S256x1 s_v8
  have s_v12 : FVec F S256x1 .f32 := Host.divf s_v10 s_v11
  have s_cst_3 : FVec F S_ .f32 := constant S_ .f32 0x00000000#32
  have s_v13 : IVec S_ 1 := cmpf .ogt s_v8 s_cst_3
  have s_cst_4 : FVec F S_ .f32 := constant S_ .f32 0x7FC00000#32
  -- the select's function, on (s_v13, s_v12, s_cst_4)
  have w_v0 : FVec F S_ .f32 := id s_cst_4
  have w_v1 : FVec F S256x1 .f32 := broadcastInDim S256x1 ![] bcast_S_S256x1 w_v0
  have w_v2 : FVec F S256x1 .f32 := select (broadcastInDim S256x1 ![] bcast_S_S256x1 s_v13) s_v12 w_v1
  have v9 : FVec F S256x1 .f32 := Host.sqrt w_v2
  have v10 : FVec F S256x65536 .f32 := broadcastInDim S256x65536 ![0, 1] bcast_S256x1_S256x65536_0_1 v8
  have v11 : FVec F S256x65536 .f32 := subf v0 v10
  have v12 : FVec F S256x65536 .f32 := broadcastInDim S256x65536 ![0, 1] bcast_S256x1_S256x65536_0_1 v9
  have v13 : FVec F S256x65536 .f32 := Host.divf v11 v12
  have cst_2 : FVec F S_ .f32 := constant S_ .f32 0xBF800000#32
  have v14 : FVec F S256x65536 .f32 := broadcastInDim S256x65536 ![] bcast_S_S256x65536 cst_2
  have v15 : FVec F S256x65536 .f32 := mulf v14 v13
  have v16 : FVec F S256x65536 .f32 := mulf v15 v4
  have cst_3 : FVec F S_ .f32 := constant S_ .f32 0x00000000#32
  have v17 : FVec F S256 .f32 := Host.reduceAdd v16 cst_3 reducesTo_S256x65536_S256_d1 h_S_
  have cst_4 : FVec F S_ .f32 := constant S_ .f32 0x47800000#32
  have v18 : FVec F S256 .f32 := broadcastInDim S256 ![] bcast_S_S256 cst_4
  have v19 : FVec F S256 .f32 := Host.divf v17 v18
  have cst_5 : FVec F S_ .f32 := constant S_ .f32 0x00000000#32
  have v20 : FVec F S_ .f32 := Host.reduceAdd v19 cst_5 reducesTo_S256_S_d0 h_S_
  have cst_6 : FVec F S_ .f32 := constant S_ .f32 0x43800000#32
  have v21 : FVec F S_ .f32 := Host.divf v20 cst_6
  v21

end Cert.NormScan.Ref

end
-- ==== Proof.RefRun.lean ====
/-
  The reference program's run: @main as one list of host operations (the called functions' operations
  listed at the call, over the call's buffers), and what every execution of it leaves in the result
  buffer — the term `refTerm` of the two arguments' contents — with the arguments unchanged.
-/
import proofs.«161543_j18021682774593_1_alg».proof.Proof.RefTerm
import Idealize.ShloMosaic.Lib.StableHlo.Run

noncomputable section

namespace Cert.NormScan.Ref

open Cert.ReferenceIdeal Cert.ReferenceIdeal.Facts₀
open Idealize.ShloMosaic Idealize.ShloMosaic.TcCoe Idealize.SL.Sem Idealize.ShloMosaic.StableHlo

variable {F : FTy → Type} [FloatOps F] [Facts]

/-- @main's operations in order, the calls unfolded: its own first thirteen, then the standard deviation's
    function on (%0, %c_1) — the variance's twenty-one, the select's three into their own buffers, the
    square root — and @main's last eighteen. -/
abbrev ops : List (HloOp τ sig (Elt F)) :=
  [ reshape main_arg0 main_v0 rfl shapeCasts_S256x256x256_S256x65536,
    reshape main_arg1 main_v1 rfl shapeCasts_S256x256x256_S256x65536,
    nullary main_c (constantI S_ 32 0#32),
    unary main_c main_v2 (broadcastInDim S256x65536 ![] bcast_S_S256x65536 : (⟨S_, .i32⟩ : BufTy).Contents (Elt F) → (⟨S256x65536, .i32⟩ : BufTy).Contents (Elt F)),
    binary main_v1 main_v2 main_v3 (cmpi .ne : (⟨S256x65536, .i32⟩ : BufTy).Contents (Elt F) → (⟨S256x65536, .i32⟩ : BufTy).Contents (Elt F) → (⟨S256x65536, .i1⟩ : BufTy).Contents (Elt F)),
    unary main_v3 main_v4 (uitofp .f32 : (⟨S256x65536, .i1⟩ : BufTy).Contents (Elt F) → (⟨S256x65536, .f32⟩ : BufTy).Contents (Elt F)),
    nullary main_cst (constant S_ .f32 0x00000000#32),
    binary main_v0 main_cst main_v5 ((fun x v => Host.reduceAdd x v reducesTo_S256x65536_S256_d1 h_S_) : (⟨S256x65536, .f32⟩ : BufTy).Contents (Elt F) → (⟨S_, .f32⟩ : BufTy).Contents (Elt F) → (⟨S256, .f32⟩ : BufTy).Contents (Elt F)),
    unary main_v5 main_v6 (broadcastInDim S256x1 ![0] bcast_S256_S256x1_0 : (⟨S256, .f32⟩ : BufTy).Contents (Elt F) → (⟨S256x1, .f32⟩ : BufTy).Contents (Elt F)),
    nullary main_cst_0 (constant S_ .f32 0x47800000#32),
    unary main_cst_0 main_v7 (broadcastInDim S256x1 ![] bcast_S_S256x1 : (⟨S_, .f32⟩ : BufTy).Contents (Elt F) → (⟨S256x1, .f32⟩ : BufTy).Contents (Elt F)),
    binary main_v6 main_v7 main_v8 (Host.divf : (⟨S256x1, .f32⟩ : BufTy).Contents (Elt F) → (⟨S256x1, .f32⟩ : BufTy).Contents (Elt F) → (⟨S256x1, .f32⟩ : BufTy).Contents (Elt F)),
    nullary main_c_1 (constantI S_ 32 1#32),
    TRef.nullary main_call0.call0.cst (constant S_ .f32 0x00000000#32),
    TRef.binary (.of main_v0) main_call0.call0.cst main_call0.call0.v0 (fun x v => Host.reduceAdd x v reducesTo_S256x65536_S256_d1 h_S_),
    TRef.unary main_call0.call0.v0 main_call0.call0.v1 (broadcastInDim S256x1 ![0] bcast_S256_S256x1_0),
    TRef.nullary main_call0.call0.cst_0 (constant S_ .f32 0x47800000#32),
    TRef.unary main_call0.call0.cst_0 main_call0.call0.v2 (broadcastInDim S256x1 ![] bcast_S_S256x1),
    TRef.binary main_call0.call0.v1 main_call0.call0.v2 main_call0.call0.v3 Host.divf,
    TRef.unary main_call0.call0.v3 main_call0.call0.v4 (broadcastInDim S256x65536 ![0, 1] bcast_S256x1_S256x65536_0_1),
    TRef.binary (.of main_v0) main_call0.call0.v4 main_call0.call0.v5 subf,
    TRef.binary main_call0.call0.v5 main_call0.call0.v5 main_call0.call0.v6 mulf,
    TRef.unary (.of main_c_1) main_call0.call0.v7 (sitofp .f32),
    TRef.nullary main_call0.call0.cst_1 (constant S_ .f32 0x47800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S256x65536_S256_d1 h_S_),
    TRef.unary main_call0.call0.v9 main_call0.call0.v10 (broadcastInDim S256x1 ![0] bcast_S256_S256x1_0),
    TRef.unary main_call0.call0.v8 main_call0.call0.v11 (broadcastInDim S256x1 ![] bcast_S_S256x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S256x1 ![] bcast_S_S256x1),
    TRef.ternary main_call0.call0.v13 main_call0.call0.v12 main_call0.call0.call0.v1 main_call0.call0.call0.v2 (fun p a b => select (broadcastInDim S256x1 ![] bcast_S_S256x1 p) a b),
    TRef.unary main_call0.call0.call0.v2 main_call0.v1 Host.sqrt,
    unary main_v8 main_v10 (broadcastInDim S256x65536 ![0, 1] bcast_S256x1_S256x65536_0_1 : (⟨S256x1, .f32⟩ : BufTy).Contents (Elt F) → (⟨S256x65536, .f32⟩ : BufTy).Contents (Elt F)),
    binary main_v0 main_v10 main_v11 (subf : (⟨S256x65536, .f32⟩ : BufTy).Contents (Elt F) → (⟨S256x65536, .f32⟩ : BufTy).Contents (Elt F) → (⟨S256x65536, .f32⟩ : BufTy).Contents (Elt F)),
    unary main_v9 main_v12 (broadcastInDim S256x65536 ![0, 1] bcast_S256x1_S256x65536_0_1 : (⟨S256x1, .f32⟩ : BufTy).Contents (Elt F) → (⟨S256x65536, .f32⟩ : BufTy).Contents (Elt F)),
    binary main_v11 main_v12 main_v13 (Host.divf : (⟨S256x65536, .f32⟩ : BufTy).Contents (Elt F) → (⟨S256x65536, .f32⟩ : BufTy).Contents (Elt F) → (⟨S256x65536, .f32⟩ : BufTy).Contents (Elt F)),
    nullary main_cst_2 (constant S_ .f32 0xBF800000#32),
    unary main_cst_2 main_v14 (broadcastInDim S256x65536 ![] bcast_S_S256x65536 : (⟨S_, .f32⟩ : BufTy).Contents (Elt F) → (⟨S256x65536, .f32⟩ : BufTy).Contents (Elt F)),
    binary main_v14 main_v13 main_v15 (mulf : (⟨S256x65536, .f32⟩ : BufTy).Contents (Elt F) → (⟨S256x65536, .f32⟩ : BufTy).Contents (Elt F) → (⟨S256x65536, .f32⟩ : BufTy).Contents (Elt F)),
    binary main_v15 main_v4 main_v16 (mulf : (⟨S256x65536, .f32⟩ : BufTy).Contents (Elt F) → (⟨S256x65536, .f32⟩ : BufTy).Contents (Elt F) → (⟨S256x65536, .f32⟩ : BufTy).Contents (Elt F)),
    nullary main_cst_3 (constant S_ .f32 0x00000000#32),
    binary main_v16 main_cst_3 main_v17 ((fun x v => Host.reduceAdd x v reducesTo_S256x65536_S256_d1 h_S_) : (⟨S256x65536, .f32⟩ : BufTy).Contents (Elt F) → (⟨S_, .f32⟩ : BufTy).Contents (Elt F) → (⟨S256, .f32⟩ : BufTy).Contents (Elt F)),
    nullary main_cst_4 (constant S_ .f32 0x47800000#32),
    unary main_cst_4 main_v18 (broadcastInDim S256 ![] bcast_S_S256 : (⟨S_, .f32⟩ : BufTy).Contents (Elt F) → (⟨S256, .f32⟩ : BufTy).Contents (Elt F)),
    binary main_v17 main_v18 main_v19 (Host.divf : (⟨S256, .f32⟩ : BufTy).Contents (Elt F) → (⟨S256, .f32⟩ : BufTy).Contents (Elt F) → (⟨S256, .f32⟩ : BufTy).Contents (Elt F)),
    nullary main_cst_5 (constant S_ .f32 0x00000000#32),
    binary main_v19 main_cst_5 main_v20 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_6 (constant S_ .f32 0x43800000#32),
    binary main_v20 main_cst_6 main_v21 (Host.divf : (⟨S_, .f32⟩ : BufTy).Contents (Elt F) → (⟨S_, .f32⟩ : BufTy).Contents (Elt F) → (⟨S_, .f32⟩ : BufTy).Contents (Elt F)) ]

-- the chain has fifty-five sequencing steps; re-associating them needs a deeper recursion than the default
set_option maxRecDepth 1024 in
/-- @main equals the sequence of the listed operations: unfolding the three called functions at their calls and
    re-associating the sequencing leaves the same chain of host steps on both sides. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., nullary_bufs_sub .., unary_bufs_sub .., binary_bufs_sub .., unary_bufs_sub ..,
    nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., nullary_bufs_sub .., binary_bufs_sub .., nullary_bufs_sub .., binary_bufs_sub ..⟩

/-- From any launch memory with zero counters every weakly fair execution of @main terminates, and each buffer
    ends holding what the listed operations, applied in order to the launch contents, leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd in
set_option maxRecDepth 8192 in
/-- What the listed operations leave in the result buffer is `refTerm` of the two arguments' contents: walking the
    list, each operation either writes the buffer being read or leaves it alone, and the operations that feed the
    result compose to the term. The row sums stay opaque: nothing here depends on what a sum computes. -/
theorem out_eq (V : Valuation τ sig (Elt F)) :
    after ops V (main_v21 : DevRef τ sig) = refTerm (V (main_arg0 : DevRef τ sig)) (V (main_arg1 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- Every weakly fair execution of the reference terminates with the result buffer at `refTerm` of the two
    arguments' launch contents, and the arguments unchanged. -/
theorem ref_run_term (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v21)
          = refTerm (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v21).trans (out_eq _), (h c main_arg0).trans (arg0_eq _),
      (h c main_arg1).trans (arg1_eq _)⟩)
    (run_main m ρ)

end Cert.NormScan.Ref

end
-- ==== Proof.RefLayout.lean ====
/-
  The reference's layout operations and its row sums read at an index, over its literal shapes: the flattening
  [256,256,256] → [256,65536] at (b, k) is the array at (b, k / 256, k % 256); a vector [256] set as a column
  [256,1], a scalar splat to any of the reference's shapes, and a column [256,1] spread over [256,65536], each at
  an index; the sum along the flattened axis at row b as the initial value plus the sum over k : Fin 65536; and
  the final sum of a vector [256] as the initial value plus the sum over b : Fin 256.
-/
import proofs.«161543_j18021682774593_1_alg».proof.ReferenceIdeal
import Idealize.ShloMosaic.Lib.Pipeline.Value
import Idealize.ShloMosaic.Lib.ValueIdx
import Idealize.ShloMosaic.PureOps.Ideal.Laws

noncomputable section

open scoped BigOperators

namespace Cert.NormScan.RefLayout

open Idealize.ShloMosaic Idealize.ShloMosaic.ValueIdx Cert.ReferenceIdeal

variable {α : Type}

/-- The flattening of the last two axes, read at row `b`, flat position `k`. -/
theorem flat_apply (x : S256x256x256.Idx → α) (h : S256x256x256.ShapeCasts S256x65536) (b : Fin 256) (k : Fin 65536) :
    shapeCast S256x65536 x h (ix2 b k) = x (ix3 b ⟨k.val / 256, by omega⟩ ⟨k.val % 256, by omega⟩) := by
  refine shapeCast_apply x h (ix2 b k) _ ?_
  rw [Shape.rowMajor_val_three, Shape.rowMajor_val_two]
  show (b.val * 256 + k.val / 256) * 256 + k.val % 256 = b.val * 65536 + k.val
  omega

/-- A vector [256] set as a column [256,1]. -/
theorem col_apply (v : S256.Idx → α) (h : S256.BroadcastsInDim S256x1 (![0] : Fin 1 → Fin S256x1.rank)) (b : Fin 256) (z : Fin 1) :
    broadcastInDim S256x1 ![0] h v (ix2 b z) = v (ix1 b) := by
  refine broadcastInDim_apply _ h v (ix2 b z) (ix1 b) fun a => ?_
  match a with | ⟨0, _⟩ => rfl

/-- A scalar splat to a column [256,1]. -/
theorem splat_col_apply (v : S_.Idx → α) (h : S_.BroadcastsInDim S256x1 (![] : Fin 0 → Fin S256x1.rank)) (j : S256x1.Idx) :
    broadcastInDim S256x1 ![] h v j = v ix0 :=
  broadcastInDim_apply _ h v j ix0 fun a => a.elim0

/-- A scalar splat to [256,65536]. -/
theorem splat_flat_apply (v : S_.Idx → α) (h : S_.BroadcastsInDim S256x65536 (![] : Fin 0 → Fin S256x65536.rank)) (j : S256x65536.Idx) :
    broadcastInDim S256x65536 ![] h v j = v ix0 :=
  broadcastInDim_apply _ h v j ix0 fun a => a.elim0

/-- A scalar splat to [256]. -/
theorem splat_vec_apply (v : S_.Idx → α) (h : S_.BroadcastsInDim S256 (![] : Fin 0 → Fin S256.rank)) (j : S256.Idx) :
    broadcastInDim S256 ![] h v j = v ix0 :=
  broadcastInDim_apply _ h v j ix0 fun a => a.elim0

/-- A column [256,1] spread over [256,65536]. -/
theorem wide_apply (v : S256x1.Idx → α) (h : S256x1.BroadcastsInDim S256x65536 (![0, 1] : Fin 2 → Fin S256x65536.rank))
    (b : Fin 256) (k : Fin 65536) :
    broadcastInDim S256x65536 ![0, 1] h v (ix2 b k) = v (ix2 b 0) := by
  refine broadcastInDim_apply _ h v (ix2 b k) (ix2 b 0) fun a => ?_
  match a with
  | ⟨0, _⟩ => rfl
  | ⟨1, _⟩ => rfl

/-- The host's sum along the flattened axis, at row `b`: the initial value plus the sum over the 65536 positions. -/
theorem rowsum_apply (v : FVec Ideal S256x65536 .f32) (init : FVec Ideal S_ .f32) (h : S256x65536.ReducesTo [1] S256)
    (hu : 0 < S_.numel) (b : Fin 256) :
    Host.reduceAdd (F := Ideal) v init h hu (ix1 b) = init ix0 + ∑ k : Fin 65536, v (ix2 b k) := by
  have hr : S256x65536.Reduces [1] S256 := by decide
  refine (Ideal.hostReduceAdd_single h hr v _ (ix1 b)).trans ?_
  have e0 : init (Shape.Idx.first hu) = init ix0 := congrArg init (funext fun a => a.elim0)
  rw [e0]
  refine congrArg (init ix0 + ·) (Finset.sum_congr rfl fun k _ => congrArg v ?_)
  funext a
  match a with
  | ⟨0, _⟩ => rfl
  | ⟨1, _⟩ => rfl

/-- The host's sum of a vector [256]: the initial value plus the sum over its 256 entries. -/
theorem vecsum_apply (v : FVec Ideal S256 .f32) (init : FVec Ideal S_ .f32) (h : S256.ReducesTo [0] S_)
    (hu : 0 < S_.numel) (j : S_.Idx) :
    Host.reduceAdd (F := Ideal) v init h hu j = init ix0 + ∑ b : Fin 256, v (ix1 b) := by
  refine (Ideal.hostReduceAdd_total h (fun b => b.elim0) v _ j).trans ?_
  have e0 : init (Shape.Idx.first hu) = init ix0 := congrArg init (funext fun a => a.elim0)
  rw [e0]
  refine congrArg (init ix0 + ·) ?_
  exact Fintype.sum_equiv ⟨fun i => (i 0 : Fin 256), ix1, fun i => (eq_ix1 i).symm, fun _ => rfl⟩ _ _
    (fun i => congrArg v (eq_ix1 i))

end Cert.NormScan.RefLayout

end
-- ==== Proof.Consts.lean ====
/-
  The float words the reference spells, as the extended reals they denote: 65536.0 is the real 65536, so the
  reference's quotient by it is the product with 1/65536; 65536.0 minus the integer 1 read as a float is 65535,
  whose quotient is the product with 1/65535; and 65535 is above zero.
-/
import proofs.«161543_j18021682774593_1_alg».proof.Proof.Spec
import Idealize.ShloMosaic.PureOps.Ideal.Laws

noncomputable section

namespace Cert.NormScan.Consts

open Idealize.ShloMosaic Cert.NormScan

/-- `65536.0` denotes the real 65536. -/
theorem ofBits_65536 : Ideal.ofBits .f32 0x47800000#32 = ((65536 : ℝ) : EReal) := by
  simp [Ideal.ofBits, Ideal.ieee, -EReal.coe_mul]; norm_num

/-- The quotient by `65536.0` is the product with 1/65536, at every extended real. -/
theorem div_65536 (s : EReal) : Ideal.div s (Ideal.ofBits .f32 0x47800000#32) = s * invN := by
  rw [ofBits_65536, Ideal.div_coe (by norm_num : (65536 : ℝ) ≠ 0)]; rfl

/-- `65536.0` minus the integer word 1 read as a float is the real 65535. -/
theorem sub_one : Ideal.ofBits .f32 0x47800000#32 - (((1#32 : BitVec 32).toInt : ℝ) : EReal) = ((65535 : ℝ) : EReal) := by
  rw [ofBits_65536]
  have h : ((1#32 : BitVec 32).toInt : ℝ) = 1 := by
    have : (1#32 : BitVec 32).toInt = 1 := by decide
    rw [this]; norm_num
  rw [h, ← EReal.coe_sub]; norm_num

/-- The quotient by 65535 is the product with 1/65535, at every extended real. -/
theorem div_65535 (s : EReal) : Ideal.div s ((65535 : ℝ) : EReal) = s * invNm1 := by
  rw [Ideal.div_coe (by norm_num : (65535 : ℝ) ≠ 0)]; rfl

/-- 65535 is above the zero word: the comparison's bit is 1. -/
theorem gt_zero : Ideal.cmp .ogt ((65535 : ℝ) : EReal) (Ideal.ofBits .f32 0x00000000#32) = 1#1 := by
  rw [Ideal.ofBits_zero_f32]
  have h : (0 : EReal) < ((65535 : ℝ) : EReal) := by
    rw [← EReal.coe_zero, EReal.coe_lt_coe_iff]; norm_num
  simp [Ideal.cmp, h]

end Cert.NormScan.Consts

end
-- ==== Proof.LibFlatSum.lean ====
/-
  A sum over `Fin (a * b)` read through quotient and remainder is the double sum over `Fin a` and `Fin b`
  (rows outside, lanes inside), in any additive commutative monoid: the step between a reduction over a
  flattened axis and the nested reductions over the two axes it was flattened from.
-/
import Mathlib

open scoped BigOperators

namespace Cert.LibFlatSum

/-- `∑ k : Fin (a * b), g (k / b) (k % b) = ∑ i : Fin a, ∑ j : Fin b, g i j`. -/
theorem sum_div_mod {M : Type*} [AddCommMonoid M] (a b : Nat) (hb : 0 < b) (g : Fin a → Fin b → M) :
    ∑ k : Fin (a * b), g ⟨k.val / b, (Nat.div_lt_iff_lt_mul hb).mpr k.isLt⟩ ⟨k.val % b, Nat.mod_lt _ hb⟩
      = ∑ i : Fin a, ∑ j : Fin b, g i j := by
  rw [← Finset.sum_product']
  refine (Fintype.sum_equiv finProdFinEquiv.symm _ _ fun k => ?_)
  rfl

/-- The same at the literal sizes 256 × 256 = 65536, the summand a function of the flat index's value. -/
theorem sum_65536 {M : Type*} [AddCommMonoid M] (g : Fin 256 → Fin 256 → M) (f : Fin 65536 → M)
    (hf : ∀ k : Fin 65536, f k = g ⟨k.val / 256, by omega⟩ ⟨k.val % 256, by omega⟩) :
    ∑ k : Fin 65536, f k = ∑ h : Fin 256, ∑ w : Fin 256, g h w := by
  rw [← sum_div_mod 256 256 (by norm_num) g]
  exact Finset.sum_congr rfl fun k _ => hf k

end Cert.LibFlatSum
-- ==== Proof.RefShape.lean ====
/-
  The reference's result term regrouped as functions of the flattened input: the column of row means, the
  column of row standard deviations, the masked negated normalized values and the vector of row statistics.
  The regrouping only names subterms, so the reference's term is the regrouped one by unfolding.
-/
import proofs.«161543_j18021682774593_1_alg».proof.Proof.RefTerm
import proofs.«161543_j18021682774593_1_alg».proof.Proof.RefLayout
import proofs.«161543_j18021682774593_1_alg».proof.Proof.Consts
import proofs.«161543_j18021682774593_1_alg».proof.Proof.LibFlatSum
import proofs.«161543_j18021682774593_1_alg».proof.Proof.Spec

noncomputable section

open scoped BigOperators

namespace Cert.NormScan.Ref

open Idealize.ShloMosaic Idealize.ShloMosaic.ValueIdx
open Cert.ReferenceIdeal Cert.ReferenceIdeal.Facts₀ Cert.NormScan

variable [Facts]

/-! ## The term regrouped -/

/-- The column of row means of a flattened array. -/
def meanCol (v0 : FVec Ideal S256x65536 .f32) : FVec Ideal S256x1 .f32 :=
  Host.divf
    (broadcastInDim S256x1 ![0] bcast_S256_S256x1_0
      (Host.reduceAdd v0 (constant S_ .f32 0x00000000#32) reducesTo_S256x65536_S256_d1 h_S_))
    (broadcastInDim S256x1 ![] bcast_S_S256x1 (constant S_ .f32 0x47800000#32))

/-- The reference's divisor of the sum of squares: 65536.0 minus the integer 1 read as a float. -/
def nm1 : FVec Ideal S_ .f32 := subf (constant S_ .f32 0x47800000#32) (sitofp .f32 (constantI S_ 32 1#32))

/-- The centred squares of a flattened array. -/
def sqDev (v0 : FVec Ideal S256x65536 .f32) : FVec Ideal S256x65536 .f32 :=
  mulf (subf v0 (broadcastInDim S256x65536 ![0, 1] bcast_S256x1_S256x65536_0_1 (meanCol v0)))
    (subf v0 (broadcastInDim S256x65536 ![0, 1] bcast_S256x1_S256x65536_0_1 (meanCol v0)))

/-- The column of row standard deviations of a flattened array. -/
def stdCol (v0 : FVec Ideal S256x65536 .f32) : FVec Ideal S256x1 .f32 :=
  Host.sqrt
    (select (broadcastInDim S256x1 ![] bcast_S_S256x1 (cmpf .ogt nm1 (constant S_ .f32 0x00000000#32)))
      (Host.divf
        (broadcastInDim S256x1 ![0] bcast_S256_S256x1_0
          (Host.reduceAdd (sqDev v0) (constant S_ .f32 0x00000000#32) reducesTo_S256x65536_S256_d1 h_S_))
        (broadcastInDim S256x1 ![] bcast_S_S256x1 nm1))
      (broadcastInDim S256x1 ![] bcast_S_S256x1 (id (constant S_ .f32 0x7FC00000#32))))

/-- The masked, negated, normalized values of a flattened array. -/
def terms (v0 v4 : FVec Ideal S256x65536 .f32) (mc sc : FVec Ideal S256x1 .f32) : FVec Ideal S256x65536 .f32 :=
  mulf
    (mulf (broadcastInDim S256x65536 ![] bcast_S_S256x65536 (constant S_ .f32 0xBF800000#32))
      (Host.divf (subf v0 (broadcastInDim S256x65536 ![0, 1] bcast_S256x1_S256x65536_0_1 mc))
        (broadcastInDim S256x65536 ![0, 1] bcast_S256x1_S256x65536_0_1 sc)))
    v4

/-- The vector of row statistics. -/
def nssVec (v0 v4 : FVec Ideal S256x65536 .f32) (mc sc : FVec Ideal S256x1 .f32) : FVec Ideal S256 .f32 :=
  Host.divf
    (Host.reduceAdd (terms v0 v4 mc sc) (constant S_ .f32 0x00000000#32) reducesTo_S256x65536_S256_d1 h_S_)
    (broadcastInDim S256 ![] bcast_S_S256 (constant S_ .f32 0x47800000#32))

/-- The flattened input and the flattened mask. -/
def flatX (x : S256x256x256.Idx → EReal) : FVec Ideal S256x65536 .f32 :=
  shapeCast S256x65536 x shapeCasts_S256x256x256_S256x65536
def flatM (tg : S256x256x256.Idx → BitVec 32) : FVec Ideal S256x65536 .f32 :=
  uitofp .f32 (cmpi .ne (shapeCast S256x65536 tg shapeCasts_S256x256x256_S256x65536)
    (broadcastInDim S256x65536 ![] bcast_S_S256x65536 (constantI S_ 32 0#32)))

/-- The reference's term is the mean of the row statistics of the flattened input. -/
theorem refTerm_comp (x : S256x256x256.Idx → EReal) (tg : S256x256x256.Idx → BitVec 32) :
    refTerm (F := Ideal) x tg
      = Host.divf
          (Host.reduceAdd (nssVec (flatX x) (flatM tg) (meanCol (flatX x)) (stdCol (flatX x)))
            (constant S_ .f32 0x00000000#32) reducesTo_S256_S_d0 h_S_)
          (constant S_ .f32 0x43800000#32) := rfl

end Cert.NormScan.Ref

end
-- ==== Proof.RefStats.lean ====
/-
  The reference's column of row means and column of row standard deviations, read at a row.

  A sum along the flattened axis of 65536 positions is the slab's double sum (position k is row k / 256,
  lane k % 256); the quotient by 65536.0 is the product with 1/65536; the divisor 65536.0 − float(1) is the real
  65535, which is above zero, so the guarded quotient is the plain one, the product with 1/65535.
-/
import proofs.«161543_j18021682774593_1_alg».proof.Proof.RefShape
import proofs.«161543_j18021682774593_1_alg».proof.Proof.RefLayout
import proofs.«161543_j18021682774593_1_alg».proof.Proof.Consts
import proofs.«161543_j18021682774593_1_alg».proof.Proof.LibFlatSum
import proofs.«161543_j18021682774593_1_alg».proof.Proof.Spec

noncomputable section

open scoped BigOperators

namespace Cert.NormScan.Ref

open Idealize.ShloMosaic Idealize.ShloMosaic.ValueIdx
open Cert.ReferenceIdeal Cert.ReferenceIdeal.Facts₀ Cert.NormScan

variable [Facts]

/-- The sum along the flattened axis, from the zero word, at row `b`, of a vector whose value at position `k` is
    `g (k / 256) (k % 256)`: the slab sum of `g`. -/
theorem rowsum_slab (v : FVec Ideal S256x65536 .f32) (g : Fin 256 → Fin 256 → EReal) (b : Fin 256)
    (hv : ∀ k : Fin 65536, v (ix2 b k) = g ⟨k.val / 256, by omega⟩ ⟨k.val % 256, by omega⟩) :
    Host.reduceAdd (F := Ideal) v (constant S_ .f32 0x00000000#32) reducesTo_S256x65536_S256_d1 h_S_ (ix1 b) = slab g := by
  rw [RefLayout.rowsum_apply]
  show Ideal.ofBits .f32 0x00000000#32 + _ = _
  rw [Ideal.ofBits_zero_f32, zero_add, LibFlatSum.sum_65536 g _ hv]
  rfl

/-- The flattened input at a position. -/
theorem flatX_row (x : S256x256x256.Idx → EReal) (b : Fin 256) (k : Fin 65536) :
    flatX x (ix2 b k) = row x b ⟨k.val / 256, by omega⟩ ⟨k.val % 256, by omega⟩ :=
  RefLayout.flat_apply x _ b k

/-- The column of row means at row `b`. -/
theorem meanCol_apply (x : S256x256x256.Idx → EReal) (b : Fin 256) (z : Fin 1) :
    meanCol (flatX x) (ix2 b z) = meanOf (row x b) := by
  show Ideal.div
      (broadcastInDim S256x1 ![0] bcast_S256_S256x1_0
        (Host.reduceAdd (F := Ideal) (flatX x) (constant S_ .f32 0x00000000#32) reducesTo_S256x65536_S256_d1 h_S_) (ix2 b z))
      (broadcastInDim S256x1 ![] bcast_S_S256x1 (constant (F := Ideal) S_ .f32 0x47800000#32) (ix2 b z)) = _
  rw [RefLayout.col_apply, RefLayout.splat_col_apply, rowsum_slab (flatX x) (row x b) b (flatX_row x b)]
  exact Consts.div_65536 _

/-- The centred squares at a position. -/
theorem sqDev_apply (x : S256x256x256.Idx → EReal) (b : Fin 256) (k : Fin 65536) :
    sqDev (flatX x) (ix2 b k)
      = (fun h w => (row x b h w - meanOf (row x b)) * (row x b h w - meanOf (row x b)))
          ⟨k.val / 256, by omega⟩ ⟨k.val % 256, by omega⟩ := by
  show (flatX x (ix2 b k) - broadcastInDim S256x65536 ![0, 1] bcast_S256x1_S256x65536_0_1 (meanCol (flatX x)) (ix2 b k))
      * (flatX x (ix2 b k) - broadcastInDim S256x65536 ![0, 1] bcast_S256x1_S256x65536_0_1 (meanCol (flatX x)) (ix2 b k)) = _
  rw [RefLayout.wide_apply, meanCol_apply, flatX_row]

/-- The reference's divisor of the sum of squares is the real 65535. -/
theorem nm1_apply (j : S_.Idx) : nm1 j = ((65535 : ℝ) : EReal) := Consts.sub_one

/-- The column of row standard deviations at row `b`. -/
theorem stdCol_apply (x : S256x256x256.Idx → EReal) (b : Fin 256) (z : Fin 1) :
    stdCol (flatX x) (ix2 b z) = stdOf (row x b) := by
  show Ideal.sqrt
      (Scalar.select
        (broadcastInDim S256x1 ![] bcast_S_S256x1 (cmpf .ogt nm1 (constant (F := Ideal) S_ .f32 0x00000000#32)) (ix2 b z))
        (Ideal.div
          (broadcastInDim S256x1 ![0] bcast_S256_S256x1_0
            (Host.reduceAdd (F := Ideal) (sqDev (flatX x)) (constant S_ .f32 0x00000000#32) reducesTo_S256x65536_S256_d1 h_S_) (ix2 b z))
          (broadcastInDim S256x1 ![] bcast_S_S256x1 nm1 (ix2 b z)))
        (broadcastInDim S256x1 ![] bcast_S_S256x1 (id (constant (F := Ideal) S_ .f32 0x7FC00000#32)) (ix2 b z))) = _
  rw [RefLayout.splat_col_apply, RefLayout.splat_col_apply, RefLayout.col_apply,
    rowsum_slab (sqDev (flatX x))
      (fun h w => (row x b h w - meanOf (row x b)) * (row x b h w - meanOf (row x b))) b (sqDev_apply x b)]
  have hc : cmpf .ogt nm1 (constant (F := Ideal) S_ .f32 0x00000000#32) ix0 = 1#1 := by
    show Ideal.cmp .ogt (nm1 ix0) (Ideal.ofBits .f32 0x00000000#32) = 1#1
    rw [nm1_apply]; exact Consts.gt_zero
  rw [hc, select_one, nm1_apply, Consts.div_65535]
  rfl

end Cert.NormScan.Ref

end
-- ==== Proof.RefRows.lean ====
/-
  The reference's vector of row statistics read at a row: the mask and the summand at a flat position, then
  the row's sum over the 65536 flat positions as the double sum over the slab, and the quotient by 65536 as
  the product with 1/65536.
-/
import proofs.«161543_j18021682774593_1_alg».proof.Proof.RefShape
import proofs.«161543_j18021682774593_1_alg».proof.Proof.RefLayout
import proofs.«161543_j18021682774593_1_alg».proof.Proof.Consts
import proofs.«161543_j18021682774593_1_alg».proof.Proof.LibFlatSum
import proofs.«161543_j18021682774593_1_alg».proof.Proof.Spec

noncomputable section

open scoped BigOperators

namespace Cert.NormScan.Ref

open Idealize.ShloMosaic Idealize.ShloMosaic.ValueIdx
open Cert.ReferenceIdeal Cert.ReferenceIdeal.Facts₀ Cert.NormScan

variable [Facts]

/-- The flattened input at row `b`, flat position `k`: the input at (b, k / 256, k % 256). -/
theorem flatX_apply (x : S256x256x256.Idx → EReal) (b : Fin 256) (k : Fin 65536) :
    flatX x (ix2 b k) = x (ix3 b ⟨k.val / 256, by omega⟩ ⟨k.val % 256, by omega⟩) :=
  RefLayout.flat_apply x _ b k

/-- The flattened mask at row `b`, flat position `k`: the mask value of the target word at (b, k / 256, k % 256). -/
theorem flatM_apply (tg : S256x256x256.Idx → BitVec 32) (b : Fin 256) (k : Fin 65536) :
    flatM tg (ix2 b k) = maskOf (tg (ix3 b ⟨k.val / 256, by omega⟩ ⟨k.val % 256, by omega⟩)) := by
  show (((IntOp.cmpi .ne (shapeCast S256x65536 tg shapeCasts_S256x256x256_S256x65536 (ix2 b k))
      (broadcastInDim S256x65536 ![] bcast_S_S256x65536 (constantI S_ 32 0#32) (ix2 b k))).toNat : ℝ) : EReal) = _
  rw [RefLayout.flat_apply, RefLayout.splat_flat_apply]
  rfl

/-- The masked, negated, normalized value at row `b`, flat position `k`: the centre and the scale are the
    row's entries of the two columns. -/
theorem terms_apply (v0 v4 : FVec Ideal S256x65536 .f32) (mc sc : FVec Ideal S256x1 .f32) (b : Fin 256) (k : Fin 65536) :
    terms v0 v4 mc sc (ix2 b k)
      = Ideal.ofBits .f32 0xBF800000#32 * Ideal.div (v0 (ix2 b k) - mc (ix2 b 0)) (sc (ix2 b 0)) * v4 (ix2 b k) := by
  show broadcastInDim S256x65536 ![] bcast_S_S256x65536 (constant (F := Ideal) S_ .f32 0xBF800000#32) (ix2 b k)
      * Ideal.div (v0 (ix2 b k) - broadcastInDim S256x65536 ![0, 1] bcast_S256x1_S256x65536_0_1 mc (ix2 b k))
          (broadcastInDim S256x65536 ![0, 1] bcast_S256x1_S256x65536_0_1 sc (ix2 b k))
      * v4 (ix2 b k) = _
  rw [RefLayout.splat_flat_apply, RefLayout.wide_apply, RefLayout.wide_apply]
  rfl

/-- The row statistic at row `b`, for any two columns of centres and scales: the slab's masked mean of the
    negated normalized values at the row's centre and scale. -/
theorem nssVec_apply (x : S256x256x256.Idx → EReal) (tg : S256x256x256.Idx → BitVec 32) (mc sc : FVec Ideal S256x1 .f32)
    (b : Fin 256) :
    nssVec (flatX x) (flatM tg) mc sc (ix1 b) = nssOf (row x b) (mrow tg b) (mc (ix2 b 0)) (sc (ix2 b 0)) := by
  show Ideal.div
      (Host.reduceAdd (terms (flatX x) (flatM tg) mc sc) (constant (F := Ideal) S_ .f32 0x00000000#32)
        reducesTo_S256x65536_S256_d1 h_S_ (ix1 b))
      (broadcastInDim S256 ![] bcast_S_S256 (constant (F := Ideal) S_ .f32 0x47800000#32) (ix1 b)) = _
  rw [RefLayout.splat_vec_apply, RefLayout.rowsum_apply]
  show Ideal.div (Ideal.ofBits .f32 0x00000000#32 + ∑ k : Fin 65536, terms (flatX x) (flatM tg) mc sc (ix2 b k))
      (Ideal.ofBits .f32 0x47800000#32) = _
  rw [Consts.div_65536, Ideal.ofBits_zero_f32, zero_add]
  show _ = slab (fun h w => Ideal.ofBits .f32 0xBF800000#32 * Ideal.div (row x b h w - mc (ix2 b 0)) (sc (ix2 b 0))
      * mrow tg b h w) * invN
  refine congrArg (· * invN) ?_
  refine Cert.LibFlatSum.sum_65536
    (fun h w => Ideal.ofBits .f32 0xBF800000#32 * Ideal.div (row x b h w - mc (ix2 b 0)) (sc (ix2 b 0)) * mrow tg b h w)
    _ fun k => ?_
  rw [terms_apply, flatX_apply, flatM_apply]
  rfl

end Cert.NormScan.Ref

end
-- ==== Proof.RefValue.lean ====
/-
  The reference's run with its result named: every execution ends with the result buffer at the
  specification's result of the two argument arrays, and the arguments unchanged.

  The reference's term is the mean of the 256 row statistics of the flattened input; each row statistic, with
  the row's mean and standard deviation in place, is the specification's, and the final sum of a vector of 256
  entries from the zero word is zero plus the sum over the rows.
-/
import proofs.«161543_j18021682774593_1_alg».proof.Proof.RefRun
import proofs.«161543_j18021682774593_1_alg».proof.Proof.RefStats
import proofs.«161543_j18021682774593_1_alg».proof.Proof.RefRows

noncomputable section

open scoped BigOperators

namespace Cert.NormScan.Ref

open Idealize.ShloMosaic Idealize.ShloMosaic.ValueIdx Idealize.ShloMosaic.TcCoe Idealize.SL.Sem
open Cert.ReferenceIdeal Cert.ReferenceIdeal.Facts₀ Cert.NormScan

variable [Facts]

/-- The reference's term at the extended reals is the specification's result, at its one index. -/
theorem refTerm_eq (x : S256x256x256.Idx → EReal) (tg : S256x256x256.Idx → BitVec 32) :
    refTerm (F := Ideal) x tg = fun _ => result x tg := by
  funext j
  rw [refTerm_comp]
  show Ideal.div
      (Host.reduceAdd (F := Ideal) (nssVec (flatX x) (flatM tg) (meanCol (flatX x)) (stdCol (flatX x)))
        (constant S_ .f32 0x00000000#32) reducesTo_S256_S_d0 h_S_ j)
      (Ideal.ofBits .f32 0x43800000#32) = _
  rw [RefLayout.vecsum_apply]
  show Ideal.div (Ideal.ofBits .f32 0x00000000#32
      + ∑ b : Fin 256, nssVec (flatX x) (flatM tg) (meanCol (flatX x)) (stdCol (flatX x)) (ix1 b))
      (Ideal.ofBits .f32 0x43800000#32)
    = Ideal.div (Ideal.ofBits .f32 0x00000000#32 + ∑ b : Fin 256, nss x tg b) (Ideal.ofBits .f32 0x43800000#32)
  refine congrArg (fun s => Ideal.div (Ideal.ofBits .f32 0x00000000#32 + s) (Ideal.ofBits .f32 0x43800000#32))
    (Finset.sum_congr rfl fun b _ => ?_)
  rw [nssVec_apply, meanCol_apply, stdCol_apply]
  rfl

/-- The reference's run: the result buffer ends at the specification's result, the arguments as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21)
          = (fun _ => result (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run (defs (F := Ideal)) _ _).mono (fun _ h c => ⟨(h c).1.trans (refTerm_eq _ _), (h c).2⟩)
    (ref_run_term (F := Ideal) m ρ)

end Cert.NormScan.Ref

end
-- ==== Proof.lean ====
/-
  The certificate of a two-pass normalized masked mean against its jnp reference.

  For an input x : f32[256,256,256] and a target of the same shape, both programs compute, per batch row b with
  slab r = x[b,·,·] of 65536 values,
    mean = (Σ r)·(1/65536),   std = √((Σ (r − mean)²)·(1/65535)),
    nss_b = (Σ (−1)·((r − mean)/std)·[target ≠ 0])·(1/65536),
  and return (0 + Σ_b nss_b)/256.  The kernel does it in two passes over sixteen blocks of sixteen rows (the
  first stores each row's mean and standard deviation, the second reads them back and stores the row's
  statistic), summing lanes then rows and multiplying by the two reciprocals, which the certificate's table names
  1/65536 and 1/65535; the reference flattens each slab to a row of 65536, sums along it, and divides by 65536,
  by 65536 − 1 and by 256.  On the extended reals a sum may be regrouped freely and a quotient by a nonzero real
  is the product with its reciprocal, so the two results are one function of the arguments at every input.

  The three frames: the kernel's two are its generated frame certificates; the reference's is its run with the
  result dropped.  The idealization's three rewrites are the table's three named constants.
-/
import proofs.«161543_j18021682774593_1_alg».proof.Defs
import proofs.«161543_j18021682774593_1_alg».proof.Proof.Gen.Kernel
import proofs.«161543_j18021682774593_1_alg».proof.Proof.Gen.Kernel.Frame
import proofs.«161543_j18021682774593_1_alg».proof.Proof.Gen.KernelIdeal
import proofs.«161543_j18021682774593_1_alg».proof.Proof.Gen.KernelIdeal.Frame
import proofs.«161543_j18021682774593_1_alg».proof.Proof.Gen.ReferenceIdeal
import proofs.«161543_j18021682774593_1_alg».proof.Proof.Gen.Pre_finite_inputs
import proofs.«161543_j18021682774593_1_alg».proof.Proof.Spec
import proofs.«161543_j18021682774593_1_alg».proof.Proof.KernelValue
import proofs.«161543_j18021682774593_1_alg».proof.Proof.RefValue
import Idealize.ShloMosaic.Adequacy
import Idealize.ShloMosaic.Init

noncomputable section

namespace Cert.Proof

open Idealize.ShloMosaic Idealize.ShloMosaic.TcCoe Idealize.SL.Sem
open Cert.NormScan.Ker (kernel_run)
open Cert.NormScan.Ref (ref_run)

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (ref_run m ρ)

/-- The idealization's three rewrites: the table gives "inv_n" the value 1/65536 (twice) and "inv_nm1" the value
    1/65535, and each printed constant is that value at the extended reals. -/
theorem preserves : Cert.preserves_Kernel_KernelIdeal :=
  ⟨IdealRules.named_const.statement Cert.KernelIdeal.κ "inv_n" .f32 0x37800000#32 ((1 / 65536 : ℝ) : EReal) rfl,
   IdealRules.named_const.statement Cert.KernelIdeal.κ "inv_nm1" .f32 0x37800080#32 ((1 / 65535 : ℝ) : EReal) rfl,
   IdealRules.named_const.statement Cert.KernelIdeal.κ "inv_n" .f32 0x37800000#32 ((1 / 65536 : ℝ) : EReal) rfl⟩

/-- Both idealized programs end with the result buffer at the specification's result of the argument arrays,
    and the arguments agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩) (ref_run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
